-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.sign_bit.Statement Cert.KernelIdeal.S12544x128 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x112x112x64 : Shape := ⟨4, ![16, 112, 112, 64]⟩
abbrev S1x576x128 : Shape := ⟨3, ![1, 576, 128]⟩
abbrev S128 : Shape := ⟨1, ![128]⟩
abbrev S1 : Shape := ⟨1, ![1]⟩
abbrev S_ : Shape := ⟨0, ![]⟩

class Facts : Prop where
  bcast_S_S16x112x112x64 : S_.BroadcastsInDim S16x112x112x64 (![] : Fin 0 → Fin S16x112x112x64.rank)
  reducesTo_S16x112x112x64_S_d0_1_2_3 : S16x112x112x64.ReducesTo [0, 1, 2, 3] S_
  h_S_ : 0 < S_.numel
  bcast_S_S1x576x128 : S_.BroadcastsInDim S1x576x128 (![] : Fin 0 → Fin S1x576x128.rank)
  reducesTo_S1x576x128_S_d0_1_2 : S1x576x128.ReducesTo [0, 1, 2] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S16x112x112x64 .f32) (main_arg1 : FVec F S1x576x128 .f32) (main_arg2 : FVec F S128 .f32) (main_arg3 : FVec F S128 .f32) (main_arg4 : FVec F S1 .f32) : IVec S_ 1 :=
  let main_v0 : FVec F S16x112x112x64 .f32 := Host.absf main_arg0
  let main_cst : FVec F S_ .f32 := constant S_ .f32 0x7F800000#32
  let main_v1 : FVec F S16x112x112x64 .f32 := broadcastInDim S16x112x112x64 ![] bcast_S_S16x112x112x64 main_cst
  let main_v2 : IVec S16x112x112x64 1 := cmpf .olt main_v0 main_v1
  let main_c : IVec S_ 1 := constantI S_ 1 1#1
  let main_v3 : IVec S_ 1 := (fun x v => Host.reduce IntOp.andi x v reducesTo_S16x112x112x64_S_d0_1_2_3 h_S_) main_v2 main_c
  let main_v4 : FVec F S1x576x128 .f32 := Host.absf main_arg1
  let main_cst_0 : FVec F S_ .f32 := constant S_ .f32 0x7F800000#32
  let main_v5 : FVec F S1x576x128 .f32 := broadcastInDim S1x576x128 ![] bcast_S_S1x576x128 main_cst_0
  let main_v6 : IVec S1x576x128 1 := cmpf .olt main_v4 main_v5
  let main_c_1 : IVec S_ 1 := constantI S_ 1 1#1
  let main_v7 : IVec S_ 1 := (fun x v => Host.reduce IntOp.andi x v reducesTo_S1x576x128_S_d0_1_2 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S16x112x112x64 : Shape := ⟨4, ![16, 112, 112, 64]⟩
abbrev S1x576x128 : Shape := ⟨3, ![1, 576, 128]⟩
abbrev S128 : Shape := ⟨1, ![128]⟩
abbrev S1 : Shape := ⟨1, ![1]⟩
abbrev S_ : Shape := ⟨0, ![]⟩
abbrev S16x114x114x64 : Shape := ⟨4, ![16, 114, 114, 64]⟩
abbrev S576x128 : Shape := ⟨2, ![576, 128]⟩
abbrev S1x128 : Shape := ⟨2, ![1, 128]⟩
abbrev S9x64x128 : Shape := ⟨3, ![9, 64, 128]⟩
abbrev S1x1 : Shape := ⟨2, ![1, 1]⟩
abbrev S16x112x112x128 : Shape := ⟨4, ![16, 112, 112, 128]⟩
abbrev S1x114x114x64 : Shape := ⟨4, ![1, 114, 114, 64]⟩
abbrev S1x112x112x128 : Shape := ⟨4, ![1, 112, 112, 128]⟩
abbrev S12544x128 : Shape := ⟨2, ![12544, 128]⟩
abbrev S12544x1 : Shape := ⟨2, ![12544, 1]⟩
abbrev S1x112x112x64 : Shape := ⟨4, ![1, 112, 112, 64]⟩
abbrev S112x112x64 : Shape := ⟨3, ![112, 112, 64]⟩
abbrev S12544x64 : Shape := ⟨2, ![12544, 64]⟩
abbrev S12544 : Shape := ⟨1, ![12544]⟩
abbrev S1x64x128 : Shape := ⟨3, ![1, 64, 128]⟩
abbrev S64x128 : Shape := ⟨2, ![64, 128]⟩
abbrev S112x112x128 : Shape := ⟨3, ![112, 112, 128]⟩

abbrev nBuf : Space → Nat
  | .hbm => 24
  | .vmem => 8
  | .smem => 0
  | _ => 0

abbrev bufTy : (tb : Table) → Fin (tcTables nBuf tb) → BufTy
  | .hbm, ⟨0, _⟩ => ⟨S16x112x112x64, .f32⟩
  | .hbm, ⟨1, _⟩ => ⟨S1x576x128, .f32⟩
  | .hbm, ⟨2, _⟩ => ⟨S128, .f32⟩
  | .hbm, ⟨3, _⟩ => ⟨S128, .f32⟩
  | .hbm, ⟨4, _⟩ => ⟨S1, .f32⟩
  | .hbm, ⟨5, _⟩ => ⟨S_, .i32⟩
  | .hbm, ⟨6, _⟩ => ⟨S_, .f32⟩
  | .hbm, ⟨7, _⟩ => ⟨S16x114x114x64, .f32⟩
  | .hbm, ⟨8, _⟩ => ⟨S576x128, .f32⟩
  | .hbm, ⟨9, _⟩ => ⟨S576x128, .f32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S_, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S576x128, .f32⟩
  | .hbm, ⟨18, _⟩ => ⟨S576x128, .f32⟩
  | .hbm, ⟨19, _⟩ => ⟨S9x64x128, .f32⟩
  | .hbm, ⟨20, _⟩ => ⟨S1x128, .f32⟩
  | .hbm, ⟨21, _⟩ => ⟨S1x128, .f32⟩
  | .hbm, ⟨22, _⟩ => ⟨S1x1, .f32⟩
  | .hbm, ⟨23, _⟩ => ⟨S16x112x112x128, .f32⟩
  | .local _ .vmem, ⟨0, _⟩ => ⟨S1x114x114x64, .f32⟩
  | .local _ .vmem, ⟨1, _⟩ => ⟨S1x114x114x64, .f32⟩
  | .local _ .vmem, ⟨2, _⟩ => ⟨S9x64x128, .f32⟩
  | .local _ .vmem, ⟨3, _⟩ => ⟨S1x128, .f32⟩
  | .local _ .vmem, ⟨4, _⟩ => ⟨S1x128, .f32⟩
  | .local _ .vmem, ⟨5, _⟩ => ⟨S1x1, .f32⟩
  | .local _ .vmem, ⟨6, _⟩ => ⟨S1x112x112x128, .f32⟩
  | .local _ .vmem, ⟨7, _⟩ => ⟨S1x112x112x128, .f32⟩
  | _, _ => ⟨S16x112x112x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_call0_v0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_cst : Ref sig .tc := ⟨.hbm, 10, rfl⟩
abbrev main_call0_v3 : Ref sig .tc := ⟨.hbm, 11, rfl⟩
abbrev main_call0_v4 : Ref sig .tc := ⟨.hbm, 12, rfl⟩
abbrev main_call0_cst_0 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_v0 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [BitOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x114x114x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x112x112x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S16x112x112x64_S16x114x114x64_000_110_110_000 : S16x112x112x64.Pads (![0, 1, 1, 0] : Fin 4 → Nat) ![0, 1, 1, 0] ![0, 0, 0, 0] S16x114x114x64
  h_S_ : 0 < S_.numel
  shapeCasts_S1x576x128_S576x128 : S1x576x128.ShapeCasts S576x128
  reducesTo_S576x128_S128_d0 : S576x128.ReducesTo [0] S128
  bcast_S128_S1x128_1 : S128.BroadcastsInDim S1x128 (![1] : Fin 1 → Fin S1x128.rank)
  bcast_S_S1x128 : S_.BroadcastsInDim S1x128 (![] : Fin 0 → Fin S1x128.rank)
  bcast_S1x128_S576x128_0_1 : S1x128.BroadcastsInDim S576x128 (![0, 1] : Fin 2 → Fin S576x128.rank)
  shapeCasts_S576x128_S9x64x128 : S576x128.ShapeCasts S9x64x128
  shapeCasts_S128_S1x128 : S128.ShapeCasts S1x128
  shapeCasts_S1_S1x1 : S1.ShapeCasts S1x1
  inb_S1x114x114x64_S1x112x112x64_0_0_0_0 : ∀ a, (![0, 0, 0, 0] : Fin 4 → Nat) a + S1x112x112x64.size a ≤ S1x114x114x64.size a
  h_S1x112x112x64 : 0 < S1x112x112x64.numel
  shapeCasts_S1x112x112x64_S112x112x64 : S1x112x112x64.ShapeCasts S112x112x64
  shapeCasts_S112x112x64_S12544x64 : S112x112x64.ShapeCasts S12544x64
  reduces_S12544x64_S12544 : S12544x64.Reduces [1] S12544
  shapeCasts_S12544_S12544x1 : S12544.ShapeCasts S12544x1
  bitsLt_bf16_f32 : FTy.bits .bf16 < FTy.bits .f32
  inb_S9x64x128_S1x64x128_0_0_0 : ∀ a, (![0, 0, 0] : Fin 3 → Nat) a + S1x64x128.size a ≤ S9x64x128.size a
  h_S1x64x128 : 0 < S1x64x128.numel
  shapeCasts_S1x64x128_S64x128 : S1x64x128.ShapeCasts S64x128
  inb_S1x114x114x64_S1x112x112x64_0_0_1_0 : ∀ a, (![0, 0, 1, 0] : Fin 4 → Nat) a + S1x112x112x64.size a ≤ S1x114x114x64.size a
  inb_S9x64x128_S1x64x128_1_0_0 : ∀ a, (![1, 0, 0] : Fin 3 → Nat) a + S1x64x128.size a ≤ S9x64x128.size a
  inb_S1x114x114x64_S1x112x112x64_0_0_2_0 : ∀ a, (![0, 0, 2, 0] : Fin 4 → Nat) a + S1x112x112x64.size a ≤ S1x114x114x64.size a
  inb_S9x64x128_S1x64x128_2_0_0 : ∀ a, (![2, 0, 0] : Fin 3 → Nat) a + S1x64x128.size a ≤ S9x64x128.size a
  inb_S1x114x114x64_S1x112x112x64_0_1_0_0 : ∀ a, (![0, 1, 0, 0] : Fin 4 → Nat) a + S1x112x112x64.size a ≤ S1x114x114x64.size a
  inb_S9x64x128_S1x64x128_3_0_0 : ∀ a, (![3, 0, 0] : Fin 3 → Nat) a + S1x64x128.size a ≤ S9x64x128.size a
  inb_S1x114x114x64_S1x112x112x64_0_1_1_0 : ∀ a, (![0, 1, 1, 0] : Fin 4 → Nat) a + S1x112x112x64.size a ≤ S1x114x114x64.size a
  inb_S9x64x128_S1x64x128_4_0_0 : ∀ a, (![4, 0, 0] : Fin 3 → Nat) a + S1x64x128.size a ≤ S9x64x128.size a
  inb_S1x114x114x64_S1x112x112x64_0_1_2_0 : ∀ a, (![0, 1, 2, 0] : Fin 4 → Nat) a + S1x112x112x64.size a ≤ S1x114x114x64.size a
  inb_S9x64x128_S1x64x128_5_0_0 : ∀ a, (![5, 0, 0] : Fin 3 → Nat) a + S1x64x128.size a ≤ S9x64x128.size a
  inb_S1x114x114x64_S1x112x112x64_0_2_0_0 : ∀ a, (![0, 2, 0, 0] : Fin 4 → Nat) a + S1x112x112x64.size a ≤ S1x114x114x64.size a
  inb_S9x64x128_S1x64x128_6_0_0 : ∀ a, (![6, 0, 0] : Fin 3 → Nat) a + S1x64x128.size a ≤ S9x64x128.size a
  inb_S1x114x114x64_S1x112x112x64_0_2_1_0 : ∀ a, (![0, 2, 1, 0] : Fin 4 → Nat) a + S1x112x112x64.size a ≤ S1x114x114x64.size a
  inb_S9x64x128_S1x64x128_7_0_0 : ∀ a, (![7, 0, 0] : Fin 3 → Nat) a + S1x64x128.size a ≤ S9x64x128.size a
  inb_S1x114x114x64_S1x112x112x64_0_2_2_0 : ∀ a, (![0, 2, 2, 0] : Fin 4 → Nat) a + S1x112x112x64.size a ≤ S1x114x114x64.size a
  inb_S9x64x128_S1x64x128_8_0_0 : ∀ a, (![8, 0, 0] : Fin 3 → Nat) a + S1x64x128.size a ≤ S9x64x128.size a
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  broadcasts_S12544x1_S12544x128 : S12544x1.Broadcasts S12544x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S12544x128 : S1x128.Broadcasts S12544x128
  shapeCasts_S12544x128_S112x112x128 : S12544x128.ShapeCasts S112x112x128
  inb_S1x112x112x128_S1x112x112x128_0_0_0_0 : ∀ a, (![0, 0, 0, 0] : Fin 4 → Nat) a + S1x112x112x128.size a ≤ S1x112x112x128.size a
  h_S1x112x112x128 : 0 < S1x112x112x128.numel
  shapeCasts_S1x112x112x128_S112x112x128 : S1x112x112x128.ShapeCasts S112x112x128
  shapeCasts_S112x112x128_S1x112x112x128 : S112x112x128.ShapeCasts S1x112x112x128
  dot_S12544x64_S64x128_S12544x128_1_0_0_1_n_n_wf : DotDims.WF S12544x64 S64x128 S12544x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x114x114x64.size a ≤ S16x114x114x64.size a
  hwx0_0 : ∀ i : grid0.Coords, EltTy.bits .f32 = 32 ∨ (Rect.block (s := S16x114x114x64) S1x114x114x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x64x128.size a ≤ S9x64x128.size a
  hwx0_1 : ∀ i : grid0.Coords, EltTy.bits .f32 = 32 ∨ (Rect.block (s := S9x64x128) S9x64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x112x112x128.size a ≤ S16x112x112x128.size a
  hwx0_5 : ∀ i : grid0.Coords, EltTy.bits .f32 = 32 ∨ (Rect.block (s := S16x112x112x128) S1x112x112x128.size (cc0_transform_5 i) (hinb0_5 i)).WholeWords (EltTy.packing .f32)

variable [Facts₀]

def dot_S12544x64_S64x128_S12544x128_1_0_0_1_n_n : DotDims S12544x64 S64x128 S12544x128 where
  lhsContracting := [1]
  rhsContracting := [0]
  lhsNonContracting := [0]
  rhsNonContracting := [1]
  lhsBatch := []
  rhsBatch := []
  wf := dot_S12544x64_S64x128_S12544x128_1_0_0_1_n_n_wf

abbrev win0_0 : Pipeline.Window sig grid0 :=
  Pipeline.Window.ofSpec (Memref.whole main_call0_v0) S1x114x114x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v10) S9x64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v12) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v13) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x112x112x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x112x112x64 : Shape := ⟨4, ![16, 112, 112, 64]⟩
abbrev S1x576x128 : Shape := ⟨3, ![1, 576, 128]⟩
abbrev S128 : Shape := ⟨1, ![128]⟩
abbrev S1 : Shape := ⟨1, ![1]⟩
abbrev S_ : Shape := ⟨0, ![]⟩
abbrev S16x114x114x64 : Shape := ⟨4, ![16, 114, 114, 64]⟩
abbrev S16x112x112x1x64 : Shape := ⟨5, ![16, 112, 112, 1, 64]⟩
abbrev S16x112x112x9x64 : Shape := ⟨5, ![16, 112, 112, 9, 64]⟩
abbrev S16x12544x576 : Shape := ⟨3, ![16, 12544, 576]⟩
abbrev S16x12544 : Shape := ⟨2, ![16, 12544]⟩
abbrev S16x12544x1 : Shape := ⟨3, ![16, 12544, 1]⟩
abbrev S1x1x1 : Shape := ⟨3, ![1, 1, 1]⟩
abbrev S1x128 : Shape := ⟨2, ![1, 128]⟩
abbrev S1x1x128 : Shape := ⟨3, ![1, 1, 128]⟩
abbrev S576x128 : Shape := ⟨2, ![576, 128]⟩
abbrev S16x12544x128 : Shape := ⟨3, ![16, 12544, 128]⟩
abbrev S16x112x112x128 : Shape := ⟨4, ![16, 112, 112, 128]⟩

abbrev nBuf : Space → Nat
  | .hbm => 69
  | .vmem => 0
  | .smem => 0
  | _ => 0

abbrev bufTy : (tb : Table) → Fin (tcTables nBuf tb) → BufTy
  | .hbm, ⟨0, _⟩ => ⟨S16x112x112x64, .f32⟩
  | .hbm, ⟨1, _⟩ => ⟨S1x576x128, .f32⟩
  | .hbm, ⟨2, _⟩ => ⟨S128, .f32⟩
  | .hbm, ⟨3, _⟩ => ⟨S128, .f32⟩
  | .hbm, ⟨4, _⟩ => ⟨S1, .f32⟩
  | .hbm, ⟨5, _⟩ => ⟨S_, .i32⟩
  | .hbm, ⟨6, _⟩ => ⟨S_, .f32⟩
  | .hbm, ⟨7, _⟩ => ⟨S16x114x114x64, .f32⟩
  | .hbm, ⟨8, _⟩ => ⟨S16x112x112x64, .f32⟩
  | .hbm, ⟨9, _⟩ => ⟨S16x112x112x64, .f32⟩
  | .hbm, ⟨10, _⟩ => ⟨S16x112x112x64, .f32⟩
  | .hbm, ⟨11, _⟩ => ⟨S16x112x112x64, .f32⟩
  | .hbm, ⟨12, _⟩ => ⟨S16x112x112x64, .f32⟩
  | .hbm, ⟨13, _⟩ => ⟨S16x112x112x64, .f32⟩
  | .hbm, ⟨14, _⟩ => ⟨S16x112x112x64, .f32⟩
  | .hbm, ⟨15, _⟩ => ⟨S16x112x112x64, .f32⟩
  | .hbm, ⟨16, _⟩ => ⟨S16x112x112x64, .f32⟩
  | .hbm, ⟨17, _⟩ => ⟨S16x112x112x1x64, .f32⟩
  | .hbm, ⟨18, _⟩ => ⟨S16x112x112x1x64, .f32⟩
  | .hbm, ⟨19, _⟩ => ⟨S16x112x112x1x64, .f32⟩
  | .hbm, ⟨20, _⟩ => ⟨S16x112x112x1x64, .f32⟩
  | .hbm, ⟨21, _⟩ => ⟨S16x112x112x1x64, .f32⟩
  | .hbm, ⟨22, _⟩ => ⟨S16x112x112x1x64, .f32⟩
  | .hbm, ⟨23, _⟩ => ⟨S16x112x112x1x64, .f32⟩
  | .hbm, ⟨24, _⟩ => ⟨S16x112x112x1x64, .f32⟩
  | .hbm, ⟨25, _⟩ => ⟨S16x112x112x1x64, .f32⟩
  | .hbm, ⟨26, _⟩ => ⟨S16x112x112x9x64, .f32⟩
  | .hbm, ⟨27, _⟩ => ⟨S16x12544x576, .f32⟩
  | .hbm, ⟨28, _⟩ => ⟨S16x12544x576, .f32⟩
  | .hbm, ⟨29, _⟩ => ⟨S_, .f32⟩
  | .hbm, ⟨30, _⟩ => ⟨S16x12544, .f32⟩
  | .hbm, ⟨31, _⟩ => ⟨S16x12544x1, .f32⟩
  | .hbm, ⟨32, _⟩ => ⟨S_, .f32⟩
  | .hbm, ⟨33, _⟩ => ⟨S16x12544x1, .f32⟩
  | .hbm, ⟨34, _⟩ => ⟨S16x12544x1, .f32⟩
  | .hbm, ⟨35, _⟩ => ⟨S16x12544x1, .f32⟩
  | .hbm, ⟨36, _⟩ => ⟨S1, .f32⟩
  | .hbm, ⟨37, _⟩ => ⟨S1x1x1, .f32⟩
  | .hbm, ⟨38, _⟩ => ⟨S16x12544x1, .f32⟩
  | .hbm, ⟨39, _⟩ => ⟨S16x12544x1, .f32⟩
  | .hbm, ⟨40, _⟩ => ⟨S1x576x128, .f32⟩
  | .hbm, ⟨41, _⟩ => ⟨S_, .f32⟩
  | .hbm, ⟨42, _⟩ => ⟨S1x128, .f32⟩
  | .hbm, ⟨43, _⟩ => ⟨S1x1x128, .f32⟩
  | .hbm, ⟨44, _⟩ => ⟨S_, .f32⟩
  | .hbm, ⟨45, _⟩ => ⟨S1x1x128, .f32⟩
  | .hbm, ⟨46, _⟩ => ⟨S1x1x128, .f32⟩
  | .hbm, ⟨47, _⟩ => ⟨S1x1x128, .f32⟩
  | .hbm, ⟨48, _⟩ => ⟨S16x12544x576, .f32⟩
  | .hbm, ⟨49, _⟩ => ⟨S16x12544x576, .f32⟩
  | .hbm, ⟨50, _⟩ => ⟨S1x576x128, .f32⟩
  | .hbm, ⟨51, _⟩ => ⟨S1x576x128, .f32⟩
  | .hbm, ⟨52, _⟩ => ⟨S_, .f32⟩
  | .hbm, ⟨53, _⟩ => ⟨S576x128, .f32⟩
  | .hbm, ⟨54, _⟩ => ⟨S16x12544x128, .f32⟩
  | .hbm, ⟨55, _⟩ => ⟨S16x12544x128, .f32⟩
  | .hbm, ⟨56, _⟩ => ⟨S16x12544x128, .f32⟩
  | .hbm, ⟨57, _⟩ => ⟨S_, .f32⟩
  | .hbm, ⟨58, _⟩ => ⟨S16x12544x128, .f32⟩
  | .hbm, ⟨59, _⟩ => ⟨S16x12544x128, .f32⟩
  | .hbm, ⟨60, _⟩ => ⟨S128, .f32⟩
  | .hbm, ⟨61, _⟩ => ⟨S1x1x128, .f32⟩
  | .hbm, ⟨62, _⟩ => ⟨S16x12544x128, .f32⟩
  | .hbm, ⟨63, _⟩ => ⟨S16x12544x128, .f32⟩
  | .hbm, ⟨64, _⟩ => ⟨S16x12544x128, .f32⟩
  | .hbm, ⟨65, _⟩ => ⟨S1x1x128, .f32⟩
  | .hbm, ⟨66, _⟩ => ⟨S16x12544x128, .f32⟩
  | .hbm, ⟨67, _⟩ => ⟨S16x12544x128, .f32⟩
  | .hbm, ⟨68, _⟩ => ⟨S16x112x112x128, .f32⟩
  | _, _ => ⟨S16x112x112x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_1 : Ref sig .tc := ⟨.hbm, 41, rfl⟩
abbrev main_v32 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_3 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_4 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩

abbrev nD : Nat := 1
abbrev τ : Topo := Topo.v7x

variable {F : FTy → Type} [FloatOps F]

class Facts₀ : Prop where
  pads_S16x112x112x64_S16x114x114x64_000_110_110_000 : S16x112x112x64.Pads (![0, 1, 1, 0] : Fin 4 → Nat) ![0, 1, 1, 0] ![0, 0, 0, 0] S16x114x114x64
  h_S_ : 0 < S_.numel
  slices_S16x114x114x64_S16x112x112x64_0_0_0_0 : S16x114x114x64.Slices ![0, 0, 0, 0] S16x112x112x64
  slices_S16x114x114x64_S16x112x112x64_0_0_1_0 : S16x114x114x64.Slices ![0, 0, 1, 0] S16x112x112x64
  slices_S16x114x114x64_S16x112x112x64_0_0_2_0 : S16x114x114x64.Slices ![0, 0, 2, 0] S16x112x112x64
  slices_S16x114x114x64_S16x112x112x64_0_1_0_0 : S16x114x114x64.Slices ![0, 1, 0, 0] S16x112x112x64
  slices_S16x114x114x64_S16x112x112x64_0_1_1_0 : S16x114x114x64.Slices ![0, 1, 1, 0] S16x112x112x64
  slices_S16x114x114x64_S16x112x112x64_0_1_2_0 : S16x114x114x64.Slices ![0, 1, 2, 0] S16x112x112x64
  slices_S16x114x114x64_S16x112x112x64_0_2_0_0 : S16x114x114x64.Slices ![0, 2, 0, 0] S16x112x112x64
  slices_S16x114x114x64_S16x112x112x64_0_2_1_0 : S16x114x114x64.Slices ![0, 2, 1, 0] S16x112x112x64
  slices_S16x114x114x64_S16x112x112x64_0_2_2_0 : S16x114x114x64.Slices ![0, 2, 2, 0] S16x112x112x64
  bcast_S16x112x112x64_S16x112x112x1x64_0_1_2_4 : S16x112x112x64.BroadcastsInDim S16x112x112x1x64 (![0, 1, 2, 4] : Fin 4 → Fin S16x112x112x1x64.rank)
  concatenates_S16x112x112x1x64_S16x112x112x1x64_S16x112x112x1x64_S16x112x112x1x64_S16x112x112x1x64_S16x112x112x1x64_S16x112x112x1x64_S16x112x112x1x64_S16x112x112x1x64_S16x112x112x9x64_d3 : Shape.Concatenates [S16x112x112x1x64, S16x112x112x1x64, S16x112x112x1x64, S16x112x112x1x64, S16x112x112x1x64, S16x112x112x1x64, S16x112x112x1x64, S16x112x112x1x64, S16x112x112x1x64] S16x112x112x9x64 3
  shapeCasts_S16x112x112x9x64_S16x12544x576 : S16x112x112x9x64.ShapeCasts S16x12544x576
  reducesTo_S16x12544x576_S16x12544_d2 : S16x12544x576.ReducesTo [2] S16x12544
  bcast_S16x12544_S16x12544x1_0_1 : S16x12544.BroadcastsInDim S16x12544x1 (![0, 1] : Fin 2 → Fin S16x12544x1.rank)
  bcast_S_S16x12544x1 : S_.BroadcastsInDim S16x12544x1 (![] : Fin 0 → Fin S16x12544x1.rank)
  bcast_S1_S1x1x1_2 : S1.BroadcastsInDim S1x1x1 (![2] : Fin 1 → Fin S1x1x1.rank)
  bcast_S1x1x1_S16x12544x1_0_1_2 : S1x1x1.BroadcastsInDim S16x12544x1 (![0, 1, 2] : Fin 3 → Fin S16x12544x1.rank)
  reducesTo_S1x576x128_S1x128_d1 : S1x576x128.ReducesTo [1] S1x128
  bcast_S1x128_S1x1x128_0_2 : S1x128.BroadcastsInDim S1x1x128 (![0, 2] : Fin 2 → Fin S1x1x128.rank)
  bcast_S_S1x1x128 : S_.BroadcastsInDim S1x1x128 (![] : Fin 0 → Fin S1x1x128.rank)
  bcast_S16x12544x1_S16x12544x576_0_1_2 : S16x12544x1.BroadcastsInDim S16x12544x576 (![0, 1, 2] : Fin 3 → Fin S16x12544x576.rank)
  bcast_S1x1x128_S1x576x128_0_1_2 : S1x1x128.BroadcastsInDim S1x576x128 (![0, 1, 2] : Fin 3 → Fin S1x576x128.rank)
  reducesTo_S1x576x128_S576x128_d0 : S1x576x128.ReducesTo [0] S576x128
  bcast_S_S16x12544x128 : S_.BroadcastsInDim S16x12544x128 (![] : Fin 0 → Fin S16x12544x128.rank)
  bcast_S128_S1x1x128_2 : S128.BroadcastsInDim S1x1x128 (![2] : Fin 1 → Fin S1x1x128.rank)
  bcast_S1x1x128_S16x12544x128_0_1_2 : S1x1x128.BroadcastsInDim S16x12544x128 (![0, 1, 2] : Fin 3 → Fin S16x12544x128.rank)
  shapeCasts_S16x12544x128_S16x112x112x128 : S16x12544x128.ShapeCasts S16x112x112x128
  dot_S16x12544x576_S576x128_S16x12544x128_2_0_01_1_n_n_wf : DotDims.WF S16x12544x576 S576x128 S16x12544x128 [2] [0] [0, 1] [1] [] []

variable [Facts₀]

def dot_S16x12544x576_S576x128_S16x12544x128_2_0_01_1_n_n : DotDims S16x12544x576 S576x128 S16x12544x128 where
  lhsContracting := [2]
  rhsContracting := [0]
  lhsNonContracting := [0, 1]
  rhsNonContracting := [1]
  lhsBatch := []
  rhsBatch := []
  wf := dot_S16x12544x576_S576x128_S16x12544x128_2_0_01_1_n_n_wf

class Facts : Prop extends Facts₀ where

variable [Facts]
-- ==== Proof.SharpCosDefs.lean ====
/-
  The sharpened cosine similarity of 3×3 patches, stated once over the extended reals.

  An output element (b, h, w, f) depends on the nine shifted positions (h + t / 3, w + t % 3), t < 9, of the
  zero-padded image, 64 channels each — 576 patch entries x — and on column f of the 576 × 128 weight matrix.
  With ws = w / max-clamped column norm, xn = sqrt (max (∑ x², ε)) + q², the value is
      y = (∑ x · ws) / xn,    out = sign y · (|y| + ε) ^ (p²) + bias.
  Two arrangements of the same number are named here: the one that sums tap by tap (nine sums of 64, accumulated
  from zero) and divides the total by xn and takes the power as exp (p² · log _), and the one that sums the 576
  products of x / xn with ws in one sum and takes the power directly.
-/
import Idealize.ShloMosaic.PureOps.Ideal
import Idealize.ShloMosaic.PureOps.Ideal.Laws

noncomputable section

namespace SharpCos

open Idealize.ShloMosaic

/-- The clamp ε: the f32 nearest to 1e-7, as the extended real its pattern denotes. -/
def eps : EReal := Ideal.ofBits .f32 0x33D6BF95#32

/-- Nine terms accumulated from zero, left to right. -/
def acc9 (g : Fin 9 → EReal) : EReal := 0 + g 0 + g 1 + g 2 + g 3 + g 4 + g 5 + g 6 + g 7 + g 8

/-- Tap t and channel c as the flat patch coordinate t · 64 + c, read backwards. -/
def tapOf (k : Fin 576) : Fin 9 := ⟨k.val / 64, by have := k.isLt; omega⟩
def chanOf (k : Fin 576) : Fin 64 := ⟨k.val % 64, Nat.mod_lt _ (by decide)⟩

/-- A patch given tap by tap, laid out flat. -/
def flat (x : Fin 9 → Fin 64 → EReal) : Fin 576 → EReal := fun k => x (tapOf k) (chanOf k)

/-- The patch norm, squares summed tap by tap. -/
def normTaps (x : Fin 9 → Fin 64 → EReal) (q : EReal) : EReal :=
  Ideal.sqrt (max (acc9 fun t => ∑ c : Fin 64, x t c * x t c) eps) + q * q

/-- The cosine, products summed tap by tap and the total divided by the norm. -/
def cosTaps (x ws : Fin 9 → Fin 64 → EReal) (q : EReal) : EReal :=
  Ideal.div (acc9 fun t => ∑ c : Fin 64, x t c * ws t c) (normTaps x q)

/-- The patch norm, squares summed in one sum from zero. -/
def normFlat (x : Fin 576 → EReal) (q : EReal) : EReal :=
  Ideal.sqrt (max (0 + ∑ k : Fin 576, x k * x k) eps) + q * q

/-- The cosine, each patch entry divided by the norm first, one sum of 576 products. -/
def cosFlat (x ws : Fin 576 → EReal) (q : EReal) : EReal :=
  ∑ k : Fin 576, Ideal.div (x k) (normFlat x q) * ws k

/-- The clamped norm of a weight column. -/
def colNorm (w : Fin 576 → EReal) : EReal := Ideal.sqrt (max (0 + ∑ k : Fin 576, w k * w k) eps)

/-- Sharpening with the power written as exp (p² · log base). -/
def sharpExpLog (y p b : EReal) : EReal := Ideal.sign y * Ideal.exp (p * p * Ideal.log (max y (-y) + eps)) + b

/-- Sharpening with the power taken directly. -/
def sharpPow (y p b : EReal) : EReal := Ideal.sign y * Ideal.pow (max y (-y) + eps) (p * p) + b

/-- An extended real that is a real number. -/
def IsReal (x : EReal) : Prop := ∃ r : ℝ, x = (r : EReal)

end SharpCos

end
-- ==== Proof.KernelTaps.lean ====
/-
  One tap of the 3×3 window inside the kernel body, read at an output position.

  The body loads a [1,112,112,64] block of the padded image per tap, flattens it to 12544 rows of 64 channels
  (row h·112 + w is position (h, w)), multiplies it into the tap's [64,128] weight slice on the matrix unit
  (accumulating into zero) and sums its squares along the channels. Read at row h·112 + w and filter f these are
      ∑ c, v(0,h,w,c) · wv(0,c,f)      and      ∑ c, v(0,h,w,c) · v(0,h,w,c).
  The change of float format on the way into the matrix unit is the identity on extended reals.
-/
import proofs.«103185_j89326729822460_1_alg».proof.Proof.Gen.KernelIdeal.Frame
import proofs.«103185_j89326729822460_1_alg».proof.Proof.SharpCosDefs
import Idealize.ShloMosaic.Lib.Pipeline.Value
import Idealize.ShloMosaic.Lib.ValueIdx
import Idealize.ShloMosaic.PureOps.Ideal.Laws

noncomputable section

namespace Cert.KernelIdeal.Taps

open Cert.KernelIdeal Cert.KernelIdeal.Gen Idealize.ShloMosaic Idealize.ShloMosaic.TcCoe
open Idealize.ShloMosaic.ValueIdx

/-- Row h·112 + w of the 12544 flattened positions. -/
def row (h w : Fin 112) : Fin 12544 := ⟨h.val * 112 + w.val, by have := h.isLt; have := w.isLt; omega⟩

/-- The flattened tap block at row h·112 + w, channel c, is the block at position (h, w), channel c. -/
theorem rows_apply (v : FVec Ideal S1x112x112x64 .f32) (h w : Fin 112) (c : Fin 64) :
    shapeCast S12544x64 (shapeCast S112x112x64 v shapeCasts_S1x112x112x64_S112x112x64) shapeCasts_S112x112x64_S12544x64
      (ix2 (row h w) c) = v (ix4 0 h w c) := by
  refine (shapeCast_apply _ _ (ix2 (row h w) c) (ix3 h w c) ?_).trans ?_
  · rw [Shape.rowMajor_val_two, Shape.rowMajor_val_three]
    show (h.val * 112 + w.val) * 64 + c.val = (h.val * 112 + w.val) * 64 + c.val
    rfl
  · refine shapeCast_apply _ _ (ix3 h w c) (ix4 0 h w c) ?_
    rw [Shape.rowMajor_val_three, Shape.rowMajor_val_four]
    show ((0 * 112 + h.val) * 112 + w.val) * 64 + c.val = (h.val * 112 + w.val) * 64 + c.val
    omega

/-- A tap's weight slice [1,64,128] with its unit axis dropped. -/
theorem wslice_apply (wv : FVec Ideal S1x64x128 .f32) (c : Fin 64) (f : Fin 128) :
    shapeCast S64x128 wv shapeCasts_S1x64x128_S64x128 (ix2 c f) = wv (ix3 0 c f) := by
  refine shapeCast_apply _ _ (ix2 c f) (ix3 0 c f) ?_
  rw [Shape.rowMajor_val_two, Shape.rowMajor_val_three]
  show (0 * 64 + c.val) * 128 + f.val = c.val * 128 + f.val
  omega

/-- The matrix product's left operand is read at the output's row, -/
theorem lhs_row (i : S12544x128.Idx) (q : dot_S12544x64_S64x128_S12544x128_1_0_0_1_n_n.contr.Idx) :
    (dot_S12544x64_S64x128_S12544x128_1_0_0_1_n_n.lhsIdx i q 0).val = (i 0).val := by
  unfold DotDims.lhsIdx
  rw [dif_neg (show ¬(0 : Fin S12544x64.rank) ∈ dot_S12544x64_S64x128_S12544x128_1_0_0_1_n_n.lhsBatch by decide),
    dif_pos (show (0 : Fin S12544x64.rank) ∈ dot_S12544x64_S64x128_S12544x128_1_0_0_1_n_n.lhsNonContracting by decide)]
  rfl

/-- and its right operand at the output's column. -/
theorem rhs_col (i : S12544x128.Idx) (q : dot_S12544x64_S64x128_S12544x128_1_0_0_1_n_n.contr.Idx) :
    (dot_S12544x64_S64x128_S12544x128_1_0_0_1_n_n.rhsIdx i q 1).val = (i 1).val := by
  unfold DotDims.rhsIdx
  rw [dif_neg (show ¬(1 : Fin S64x128.rank) ∈ dot_S12544x64_S64x128_S12544x128_1_0_0_1_n_n.rhsBatch by decide),
    dif_pos (show (1 : Fin S64x128.rank) ∈ dot_S12544x64_S64x128_S12544x128_1_0_0_1_n_n.rhsNonContracting by decide)]
  rfl

/-- One tap on the matrix unit, accumulated into zero: at row h·112 + w and filter f the sum over the 64 channels. -/
theorem tapdot_apply (v : FVec Ideal S1x112x112x64 .f32) (wv : FVec Ideal S1x64x128 .f32) (h w : Fin 112) (f : Fin 128) :
    matmul (F := Ideal) dot_S12544x64_S64x128_S12544x128_1_0_0_1_n_n none
        (truncf .bf16 (shapeCast S12544x64 (shapeCast S112x112x64 v shapeCasts_S1x112x112x64_S112x112x64) shapeCasts_S112x112x64_S12544x64) bitsLt_bf16_f32)
        (truncf .bf16 (shapeCast S64x128 wv shapeCasts_S1x64x128_S64x128) bitsLt_bf16_f32)
        (constant S12544x128 .f32 0x00000000#32) (ix2 (row h w) f)
      = ∑ c : Fin 64, v (ix4 0 h w c) * wv (ix3 0 c f) := by
  simp only [matmul]
  rw [Ideal.matmul_constant_zero_apply,
    ← Equiv.sum_comp (contrEquiv1 dot_S12544x64_S64x128_S12544x128_1_0_0_1_n_n 64 rfl rfl).symm]
  refine Finset.sum_congr rfl fun k _ => ?_
  have hk := contrEquiv1_symm_val dot_S12544x64_S64x128_S12544x128_1_0_0_1_n_n 64 rfl rfl k
  have el : dot_S12544x64_S64x128_S12544x128_1_0_0_1_n_n.lhsIdx (ix2 (row h w) f)
      ((contrEquiv1 dot_S12544x64_S64x128_S12544x128_1_0_0_1_n_n 64 rfl rfl).symm k) = ix2 (row h w) k :=
    funext fun a => Fin.ext (by
      match a with
      | ⟨0, _⟩ => exact lhs_row _ _
      | ⟨1, _⟩ => exact (dot_S12544x64_S64x128_S12544x128_1_0_0_1_n_n.lhsIdx_val_of_single rfl _ _).trans hk)
  have er : dot_S12544x64_S64x128_S12544x128_1_0_0_1_n_n.rhsIdx (ix2 (row h w) f)
      ((contrEquiv1 dot_S12544x64_S64x128_S12544x128_1_0_0_1_n_n 64 rfl rfl).symm k) = ix2 k f :=
    funext fun a => Fin.ext (by
      match a with
      | ⟨0, _⟩ => exact (dot_S12544x64_S64x128_S12544x128_1_0_0_1_n_n.rhsIdx_val_of_single rfl _ _).trans hk
      | ⟨1, _⟩ => exact rhs_col _ _)
  rw [el, er]
  show shapeCast S12544x64 (shapeCast S112x112x64 v shapeCasts_S1x112x112x64_S112x112x64) shapeCasts_S112x112x64_S12544x64 (ix2 (row h w) k)
      * shapeCast S64x128 wv shapeCasts_S1x64x128_S64x128 (ix2 k f) = _
  rw [rows_apply, wslice_apply]

/-- One tap's squares summed along the channels, kept as a column: at row h·112 + w the sum over the 64 channels. -/
theorem tapsq_apply (v : FVec Ideal S1x112x112x64 .f32) (h w : Fin 112)
    (hφ : FKind.Formats .f32) (hacc : (0x00000000#32 : BitVec 32) = 0x00000000#32) :
    shapeCast S12544x1 (multiReduction (F := Ideal) .add [1] S12544
        (mulf (shapeCast S12544x64 (shapeCast S112x112x64 v shapeCasts_S1x112x112x64_S112x112x64) shapeCasts_S112x112x64_S12544x64)
              (shapeCast S12544x64 (shapeCast S112x112x64 v shapeCasts_S1x112x112x64_S112x112x64) shapeCasts_S112x112x64_S12544x64))
        0x00000000#32 reduces_S12544x64_S12544 hφ hacc) shapeCasts_S12544_S12544x1 (ix2 (row h w) 0)
      = ∑ c : Fin 64, v (ix4 0 h w c) * v (ix4 0 h w c) := by
  refine (shapeCast_apply _ _ (ix2 (row h w) 0) (ix1 (row h w)) ?_).trans ?_
  · rw [Shape.rowMajor_val_one, Shape.rowMajor_val_two]
    show (h.val * 112 + w.val) = (h.val * 112 + w.val) * 1 + 0
    omega
  · refine (Ideal.multiReduction_add_single (φ := .f32) _ 0x00000000#32 reduces_S12544x64_S12544 hφ hacc (ix1 (row h w))).trans ?_
    refine Finset.sum_congr rfl fun (c : Fin 64) _ => ?_
    have e : reduces_S12544x64_S12544.lift (ix1 (row h w)) c = ix2 (row h w) c :=
      funext fun a => Fin.ext (by match a with | ⟨0, _⟩ => rfl | ⟨1, _⟩ => rfl)
    rw [e]
    show shapeCast S12544x64 (shapeCast S112x112x64 v shapeCasts_S1x112x112x64_S112x112x64) shapeCasts_S112x112x64_S12544x64 (ix2 (row h w) c)
      * shapeCast S12544x64 (shapeCast S112x112x64 v shapeCasts_S1x112x112x64_S112x112x64) shapeCasts_S112x112x64_S12544x64 (ix2 (row h w) c) = _
    rw [rows_apply]

end Cert.KernelIdeal.Taps

end
-- ==== Proof.KernelPayload.lean ====
/-
  The kernel body's arithmetic, payload by payload, read at an output position.

  The body accumulates nine taps: the matrix products into a [12544,128] accumulator that starts at zero and the
  channel sums of squares into a [12544,1] column that starts at zero; then divides the accumulator by
  sqrt (max (squares, ε)) + q·q broadcast along the filters, takes the sign, and sharpens with
  exp (p·p · log (|y| + ε)), adding the bias. Each lemma states one payload of the generated skeleton at row
  h·112 + w (position (h, w)) and filter f, over arbitrary operand vectors.
-/
import proofs.«103185_j89326729822460_1_alg».proof.Proof.Gen.KernelIdeal.Frame
import proofs.«103185_j89326729822460_1_alg».proof.Proof.SharpCosDefs
import Idealize.ShloMosaic.Lib.Pipeline.Value
import Idealize.ShloMosaic.Lib.ValueIdx
import Idealize.ShloMosaic.PureOps.Ideal.Laws
import proofs.«103185_j89326729822460_1_alg».proof.Proof.KernelTaps

noncomputable section

namespace Cert.KernelIdeal.Taps

open Cert.KernelIdeal Cert.KernelIdeal.Gen Idealize.ShloMosaic Idealize.ShloMosaic.TcCoe
open Idealize.ShloMosaic.ValueIdx

/-- One tap's contribution to the accumulator at position (h, w), filter f. -/
abbrev tapSum (v : FVec Ideal S1x112x112x64 .f32) (wv : FVec Ideal S1x64x128 .f32) (h w : Fin 112) (f : Fin 128) : EReal :=
  ∑ c : Fin 64, v (ix4 0 h w c) * wv (ix3 0 c f)

/-- One tap's contribution to the sum of squares at position (h, w). -/
abbrev sqSum (v : FVec Ideal S1x112x112x64 .f32) (h w : Fin 112) : EReal :=
  ∑ c : Fin 64, v (ix4 0 h w c) * v (ix4 0 h w c)

theorem zero_word : (Scalar.ofBits (F := Ideal) .f32 0x00000000#32 : EReal) = 0 := Ideal.ofBits_zero_f32

/-- The transcendental vector operations act entry by entry. -/
theorem vsqrt_apply {s : Shape} (x : FVec Ideal s .f32) (i : s.Idx) : sqrt x i = Ideal.sqrt (x i) := rfl
theorem vexp_apply {s : Shape} (x : FVec Ideal s .f32) (i : s.Idx) : exp x i = Ideal.exp (x i) := rfl

/-- The one entry of the [1,1] offset block. -/
theorem offset_entry (v119 : FVec Ideal S1x1 .f32) : extractAt ![0, 0] v119 inpos_S1x1_p0_0 = v119 (ix2 0 0) :=
  congrArg v119 (funext fun a => Fin.ext (by match a with | ⟨0, _⟩ => rfl | ⟨1, _⟩ => rfl))

/-- Taps 0 and 1 into the zero accumulator. -/
theorem pay5_apply (v2 : FVec Ideal S1x112x112x64 .f32) (v10 : FVec Ideal S1x64x128 .f32) (v15 : FVec Ideal S1x112x112x64 .f32)
    (v23 : FVec Ideal S1x64x128 .f32) (h w : Fin 112) (f : Fin 128) :
    k0_pay5 (F := Ideal) v2 v10 v15 v23 (ix2 (row h w) f) = 0 + tapSum v2 v10 h w f + tapSum v15 v23 h w f := by
  unfold k0_pay5 k0_pay2 k0_pay3
  simp only [addf_apply, broadcast_apply]
  rw [tapdot_apply, tapdot_apply, zero_word]

/-- Taps 0 and 1 into the zero column of squares. -/
theorem pay4_apply (v2 v15 : FVec Ideal S1x112x112x64 .f32) (h w : Fin 112) :
    k0_pay4 (F := Ideal) v2 v15 (ix2 (row h w) 0) = 0 + sqSum v2 h w + sqSum v15 h w := by
  unfold k0_pay4 k0_pay2 k0_pay3
  simp only [addf_apply, broadcast_apply]
  rw [tapsq_apply, tapsq_apply, zero_word]

/-- Tap 2 alone as a column of squares. -/
theorem pay7_apply (v28 : FVec Ideal S1x112x112x64 .f32) (h w : Fin 112) :
    k0_pay7 (F := Ideal) v28 (ix2 (row h w) 0) = sqSum v28 h w := by
  unfold k0_pay7 k0_pay6
  rw [tapsq_apply]

/-- The column of squares after taps 2, 3 and 4 join. -/
theorem pay10_apply (v21 v33 : FVec Ideal S12544x1 .f32) (v41 v54 : FVec Ideal S1x112x112x64 .f32) (h w : Fin 112) :
    k0_pay10 (F := Ideal) v21 v33 v41 v54 (ix2 (row h w) 0)
      = v21 (ix2 (row h w) 0) + v33 (ix2 (row h w) 0) + sqSum v41 h w + sqSum v54 h w := by
  unfold k0_pay10 k0_pay8 k0_pay9
  simp only [addf_apply]
  rw [tapsq_apply, tapsq_apply]

/-- The column of squares after taps 5, 6 and 7 join. -/
theorem pay16_apply (v60 : FVec Ideal S12544x1 .f32) (v67 v80 v93 : FVec Ideal S1x112x112x64 .f32) (h w : Fin 112) :
    k0_pay16 (F := Ideal) v60 v67 v80 v93 (ix2 (row h w) 0)
      = v60 (ix2 (row h w) 0) + sqSum v67 h w + sqSum v80 h w + sqSum v93 h w := by
  unfold k0_pay16 k0_pay12 k0_pay13 k0_pay15
  simp only [addf_apply]
  rw [tapsq_apply, tapsq_apply, tapsq_apply]

/-- The accumulator after taps 2, 3 and 4 join. -/
theorem pay11_apply (v27 : FVec Ideal S12544x128 .f32) (v28 : FVec Ideal S1x112x112x64 .f32) (v36 : FVec Ideal S1x64x128 .f32)
    (v41 : FVec Ideal S1x112x112x64 .f32) (v49 : FVec Ideal S1x64x128 .f32) (v54 : FVec Ideal S1x112x112x64 .f32)
    (v62 : FVec Ideal S1x64x128 .f32) (h w : Fin 112) (f : Fin 128) :
    k0_pay11 (F := Ideal) v27 (k0_pay6 v28) v36 v41 v49 v54 v62 (ix2 (row h w) f)
      = v27 (ix2 (row h w) f) + tapSum v28 v36 h w f + tapSum v41 v49 h w f + tapSum v54 v62 h w f := by
  unfold k0_pay11 k0_pay6 k0_pay8 k0_pay9
  simp only [addf_apply]
  rw [tapdot_apply, tapdot_apply, tapdot_apply]

/-- The accumulator after taps 5 and 6 join. -/
theorem pay14_apply (v66 : FVec Ideal S12544x128 .f32) (v67 : FVec Ideal S1x112x112x64 .f32) (v75 : FVec Ideal S1x64x128 .f32)
    (v80 : FVec Ideal S1x112x112x64 .f32) (v88 : FVec Ideal S1x64x128 .f32) (h w : Fin 112) (f : Fin 128) :
    k0_pay14 (F := Ideal) v66 v67 v75 v80 v88 (ix2 (row h w) f)
      = v66 (ix2 (row h w) f) + tapSum v67 v75 h w f + tapSum v80 v88 h w f := by
  unfold k0_pay14 k0_pay12 k0_pay13
  simp only [addf_apply]
  rw [tapdot_apply, tapdot_apply]

/-- Tap 7's product alone. -/
theorem pay17_apply (v93 : FVec Ideal S1x112x112x64 .f32) (v101 : FVec Ideal S1x64x128 .f32) (h w : Fin 112) (f : Fin 128) :
    k0_pay17 (F := Ideal) v93 v101 (ix2 (row h w) f) = tapSum v93 v101 h w f := by
  unfold k0_pay17 k0_pay15
  rw [tapdot_apply]

/-- The column norm broadcast along the filters. -/
theorem colbcast_apply (col : FVec Ideal S12544x1 .f32) (h w : Fin 112) (f : Fin 128) :
    broadcastTo S12544x128 col broadcasts_S12544x1_S12544x128 (ix2 (row h w) f) = col (ix2 (row h w) 0) := by
  refine broadcastTo_apply _ _ (ix2 (row h w) f) (ix2 (row h w) 0) fun a => ?_
  match a with
  | ⟨0, _⟩ => show (h.val * 112 + w.val) = if (12544 : Nat) = 1 then 0 else (h.val * 112 + w.val); rw [if_neg (by decide)]
  | ⟨1, _⟩ => show 0 = if (1 : Nat) = 1 then 0 else f.val; rw [if_pos rfl]

/-- A [1,128] row broadcast down the 12544 positions. -/
theorem rowbcast_apply (r : FVec Ideal S1x128 .f32) (h w : Fin 112) (f : Fin 128) :
    broadcastTo S12544x128 r broadcasts_S1x128_S12544x128 (ix2 (row h w) f) = r (ix2 0 f) := by
  refine broadcastTo_apply _ _ (ix2 (row h w) f) (ix2 0 f) fun a => ?_
  match a with
  | ⟨0, _⟩ => show 0 = if (1 : Nat) = 1 then 0 else (h.val * 112 + w.val); rw [if_pos rfl]
  | ⟨1, _⟩ => show f.val = if (128 : Nat) = 1 then 0 else f.val; rw [if_neg (by decide)]

/-- The cosine: taps 7 and 8 join, and the accumulator is divided by sqrt (max (squares, ε)) + q·q. -/
theorem pay18_apply (v92 : FVec Ideal S12544x128 .f32) (v99 : FVec Ideal S12544x1 .f32) (v104 : FVec Ideal S12544x128 .f32)
    (v106 : FVec Ideal S1x112x112x64 .f32) (v114 : FVec Ideal S1x64x128 .f32) (v119 : FVec Ideal S1x1 .f32)
    (h w : Fin 112) (f : Fin 128) :
    k0_pay18 (F := Ideal) v92 v99 v104 v106 v114 v119 (ix2 (row h w) f)
      = Ideal.div (v92 (ix2 (row h w) f) + v104 (ix2 (row h w) f) + tapSum v106 v114 h w f)
          (Ideal.sqrt (max (v99 (ix2 (row h w) 0) + sqSum v106 h w) SharpCos.eps) + v119 (ix2 0 0) * v119 (ix2 0 0)) := by
  unfold k0_pay18
  simp only [divf_apply, addf_apply]
  rw [tapdot_apply, colbcast_apply]
  simp only [addf_apply, vsqrt_apply, maximumf_apply, broadcast_apply]
  rw [tapsq_apply, offset_entry]
  rfl

/-- The sign of the cosine, as the body selects it. -/
theorem pay19_apply (v92 : FVec Ideal S12544x128 .f32) (v99 : FVec Ideal S12544x1 .f32) (v104 : FVec Ideal S12544x128 .f32)
    (v106 : FVec Ideal S1x112x112x64 .f32) (v114 : FVec Ideal S1x64x128 .f32) (v119 : FVec Ideal S1x1 .f32) (j : S12544x128.Idx) :
    k0_pay19 (F := Ideal) v92 v99 v104 v106 v114 v119 j = Ideal.sign (k0_pay18 (F := Ideal) v92 v99 v104 v106 v114 v119 j) := by
  unfold k0_pay19
  exact Ideal.jnp_sign_eq_sign_f32 _

/-- The logarithm of |cosine| + ε. -/
theorem pay21_apply (v92 : FVec Ideal S12544x128 .f32) (v99 : FVec Ideal S12544x1 .f32) (v104 : FVec Ideal S12544x128 .f32)
    (v106 : FVec Ideal S1x112x112x64 .f32) (v114 : FVec Ideal S1x64x128 .f32) (v119 : FVec Ideal S1x1 .f32) (j : S12544x128.Idx) :
    k0_pay21 (F := Ideal) v92 v99 v104 v106 v114 v119 j
      = Ideal.log (max (k0_pay18 (F := Ideal) v92 v99 v104 v106 v114 v119 j) (-(k0_pay18 (F := Ideal) v92 v99 v104 v106 v114 v119 j)) + SharpCos.eps) := by
  unfold k0_pay21
  rfl

/-- The exponent p·p. -/
theorem pay20_apply (v139 v141 : FVec Ideal S1x128 .f32) (f : Fin 128) :
    k0_pay20 (F := Ideal) v139 v141 (ix2 0 f) = v139 (ix2 0 f) * v141 (ix2 0 f) := by
  unfold k0_pay20
  rw [shapeCast_self, shapeCast_self]
  rfl

/-- The stored block: sign · exp (p·p · log) + bias, laid back out as [1,112,112,128]. -/
theorem pay1_apply (v138 : FVec Ideal S12544x128 .f32) (v143 : FVec Ideal S1x128 .f32) (v147 : FVec Ideal S12544x128 .f32)
    (v152 : FVec Ideal S1x128 .f32) (h w : Fin 112) (f : Fin 128) :
    k0_pay1 (F := Ideal) v138 v143 v147 v152 (ix4 0 h w f)
      = v138 (ix2 (row h w) f) * Ideal.exp (v143 (ix2 0 f) * v147 (ix2 (row h w) f)) + v152 (ix2 0 f) := by
  unfold k0_pay1
  refine (shapeCast_apply _ _ (ix4 0 h w f) (ix3 h w f) ?_).trans ?_
  · rw [Shape.rowMajor_val_three, Shape.rowMajor_val_four]
    show (h.val * 112 + w.val) * 128 + f.val = ((0 * 112 + h.val) * 112 + w.val) * 128 + f.val
    omega
  refine (shapeCast_apply _ _ (ix3 h w f) (ix2 (row h w) f) ?_).trans ?_
  · rw [Shape.rowMajor_val_two, Shape.rowMajor_val_three]
    show (h.val * 112 + w.val) * 128 + f.val = (h.val * 112 + w.val) * 128 + f.val
    rfl
  simp only [addf_apply, mulf_apply, vexp_apply]
  rw [rowbcast_apply, rowbcast_apply, shapeCast_self]

end Cert.KernelIdeal.Taps

end
-- ==== Proof.KernelBody.lean ====
/-
  What one grid point's body leaves in the output block, entry by entry.

  At a grid point the body sees one padded image [1,114,114,64], the nine weight slices [9,64,128], bias and
  exponent rows [1,128] and the offset [1,1]. Tap t loads the [1,112,112,64] window of the image shifted by
  (t / 3, t % 3) and slice t of the weights. The block entry (0, h, w, f) is then the sharpened cosine of the
  patch at (h, w) against filter f, in the tap-by-tap arrangement.
-/
import proofs.«103185_j89326729822460_1_alg».proof.Proof.Gen.KernelIdeal.Frame
import proofs.«103185_j89326729822460_1_alg».proof.Proof.SharpCosDefs
import Idealize.ShloMosaic.Lib.Pipeline.Value
import Idealize.ShloMosaic.Lib.ValueIdx
import Idealize.ShloMosaic.PureOps.Ideal.Laws
import proofs.«103185_j89326729822460_1_alg».proof.Proof.KernelPayload

noncomputable section

namespace Cert.KernelIdeal.Taps

open Cert.KernelIdeal Cert.KernelIdeal.Gen Idealize.ShloMosaic Idealize.ShloMosaic.TcCoe
open Idealize.ShloMosaic.ValueIdx

/-- Tap t's window of the padded image: position (h, w) reads the image at (h + t / 3, w + t % 3). -/
def tapBlk (x0 : Vec Ideal S1x114x114x64 .f32) (t : Fin 9) : FVec Ideal S1x112x112x64 .f32 := fun y =>
  x0 (ix4 0 ⟨(y 1).val + t.val / 3, by have h1 : (y 1).val < 112 := (y 1).isLt; have := t.isLt; omega⟩
    ⟨(y 2).val + t.val % 3, by have h2 : (y 2).val < 112 := (y 2).isLt; have := t.isLt; omega⟩
    ⟨(y 3).val, (y 3).isLt⟩)

/-- Tap t's slice of the weights. -/
def wBlk (x1 : Vec Ideal S9x64x128 .f32) (t : Fin 9) : FVec Ideal S1x64x128 .f32 := fun y =>
  x1 (ix3 t ⟨(y 1).val, (y 1).isLt⟩ ⟨(y 2).val, (y 2).isLt⟩)

/-- A load through the unit-stride rectangle at offset (0, t / 3, t % 3, 0) is tap t's window. -/
theorem ld_tap (x0 : Vec Ideal S1x114x114x64 .f32) (t : Fin 9) (off : Fin 4 → Nat) (hoff : off = ![0, t.val / 3, t.val % 3, 0])
    (inb : ∀ a, off a + S1x112x112x64.size a ≤ S1x114x114x64.size a) :
    (View.ld x0 (Rect.unit (s := S1x114x114x64) off S1x112x112x64.size inb) : FVec Ideal S1x112x112x64 .f32) = tapBlk x0 t := by
  subst hoff
  funext y
  refine congrArg x0 (funext fun a => Fin.ext ?_)
  match a with
  | ⟨0, _⟩ => show 0 + 1 * (y 0).val = 0; have h0 : (y 0).val < 1 := (y 0).isLt; omega
  | ⟨1, _⟩ => show t.val / 3 + 1 * (y 1).val = (y 1).val + t.val / 3; omega
  | ⟨2, _⟩ => show t.val % 3 + 1 * (y 2).val = (y 2).val + t.val % 3; omega
  | ⟨3, _⟩ => show 0 + 1 * (y 3).val = (y 3).val; omega

/-- A load through the rectangle at offset (t, 0, 0) is slice t of the weights. -/
theorem ld_w (x1 : Vec Ideal S9x64x128 .f32) (t : Fin 9) (off : Fin 3 → Nat) (hoff : off = ![t.val, 0, 0])
    (inb : ∀ a, off a + S1x64x128.size a ≤ S9x64x128.size a) :
    (View.ld x1 (Rect.unit (s := S9x64x128) off S1x64x128.size inb) : FVec Ideal S1x64x128 .f32) = wBlk x1 t := by
  subst hoff
  funext y
  refine congrArg x1 (funext fun a => Fin.ext ?_)
  match a with
  | ⟨0, _⟩ => show t.val + 1 * (y 0).val = t.val; have h0 : (y 0).val < 1 := (y 0).isLt; omega
  | ⟨1, _⟩ => show 0 + 1 * (y 1).val = (y 1).val; omega
  | ⟨2, _⟩ => show 0 + 1 * (y 2).val = (y 2).val; omega

theorem ld_tap0 (x0 : Vec Ideal S1x114x114x64 .f32) : (View.ld x0 r0_0 : FVec Ideal S1x112x112x64 .f32) = tapBlk x0 0 := ld_tap x0 0 _ rfl _
theorem ld_w0 (x1 : Vec Ideal S9x64x128 .f32) : (View.ld x1 r0_1 : FVec Ideal S1x64x128 .f32) = wBlk x1 0 := ld_w x1 0 _ rfl _
theorem ld_tap1 (x0 : Vec Ideal S1x114x114x64 .f32) : (View.ld x0 r0_2 : FVec Ideal S1x112x112x64 .f32) = tapBlk x0 1 := ld_tap x0 1 _ rfl _
theorem ld_w1 (x1 : Vec Ideal S9x64x128 .f32) : (View.ld x1 r0_3 : FVec Ideal S1x64x128 .f32) = wBlk x1 1 := ld_w x1 1 _ rfl _
theorem ld_tap2 (x0 : Vec Ideal S1x114x114x64 .f32) : (View.ld x0 r0_4 : FVec Ideal S1x112x112x64 .f32) = tapBlk x0 2 := ld_tap x0 2 _ rfl _
theorem ld_w2 (x1 : Vec Ideal S9x64x128 .f32) : (View.ld x1 r0_5 : FVec Ideal S1x64x128 .f32) = wBlk x1 2 := ld_w x1 2 _ rfl _
theorem ld_tap3 (x0 : Vec Ideal S1x114x114x64 .f32) : (View.ld x0 r0_6 : FVec Ideal S1x112x112x64 .f32) = tapBlk x0 3 := ld_tap x0 3 _ rfl _
theorem ld_w3 (x1 : Vec Ideal S9x64x128 .f32) : (View.ld x1 r0_7 : FVec Ideal S1x64x128 .f32) = wBlk x1 3 := ld_w x1 3 _ rfl _
theorem ld_tap4 (x0 : Vec Ideal S1x114x114x64 .f32) : (View.ld x0 r0_8 : FVec Ideal S1x112x112x64 .f32) = tapBlk x0 4 := ld_tap x0 4 _ rfl _
theorem ld_w4 (x1 : Vec Ideal S9x64x128 .f32) : (View.ld x1 r0_9 : FVec Ideal S1x64x128 .f32) = wBlk x1 4 := ld_w x1 4 _ rfl _
theorem ld_tap5 (x0 : Vec Ideal S1x114x114x64 .f32) : (View.ld x0 r0_10 : FVec Ideal S1x112x112x64 .f32) = tapBlk x0 5 := ld_tap x0 5 _ rfl _
theorem ld_w5 (x1 : Vec Ideal S9x64x128 .f32) : (View.ld x1 r0_11 : FVec Ideal S1x64x128 .f32) = wBlk x1 5 := ld_w x1 5 _ rfl _
theorem ld_tap6 (x0 : Vec Ideal S1x114x114x64 .f32) : (View.ld x0 r0_12 : FVec Ideal S1x112x112x64 .f32) = tapBlk x0 6 := ld_tap x0 6 _ rfl _
theorem ld_w6 (x1 : Vec Ideal S9x64x128 .f32) : (View.ld x1 r0_13 : FVec Ideal S1x64x128 .f32) = wBlk x1 6 := ld_w x1 6 _ rfl _
theorem ld_tap7 (x0 : Vec Ideal S1x114x114x64 .f32) : (View.ld x0 r0_14 : FVec Ideal S1x112x112x64 .f32) = tapBlk x0 7 := ld_tap x0 7 _ rfl _
theorem ld_w7 (x1 : Vec Ideal S9x64x128 .f32) : (View.ld x1 r0_15 : FVec Ideal S1x64x128 .f32) = wBlk x1 7 := ld_w x1 7 _ rfl _
theorem ld_tap8 (x0 : Vec Ideal S1x114x114x64 .f32) : (View.ld x0 r0_16 : FVec Ideal S1x112x112x64 .f32) = tapBlk x0 8 := ld_tap x0 8 _ rfl _
theorem ld_w8 (x1 : Vec Ideal S9x64x128 .f32) : (View.ld x1 r0_17 : FVec Ideal S1x64x128 .f32) = wBlk x1 8 := ld_w x1 8 _ rfl _

theorem zero4 : (![0, 0, 0, 0] : Fin 4 → Nat) = fun _ => 0 := funext fun a => by
  match a with | ⟨0, _⟩ => rfl | ⟨1, _⟩ => rfl | ⟨2, _⟩ => rfl | ⟨3, _⟩ => rfl
theorem zero2 : (![0, 0] : Fin 2 → Nat) = fun _ => 0 := funext fun a => by
  match a with | ⟨0, _⟩ => rfl | ⟨1, _⟩ => rfl

/-- The patch of the padded block at position (h, w): tap t, channel c. -/
def patchOf (x0 : Vec Ideal S1x114x114x64 .f32) (h w : Fin 112) : Fin 9 → Fin 64 → EReal := fun t c =>
  tapBlk x0 t (ix4 0 h w c)

/-- Filter f's column of the weight slices: tap t, channel c. -/
def filterOf (x1 : Vec Ideal S9x64x128 .f32) (f : Fin 128) : Fin 9 → Fin 64 → EReal := fun t c =>
  wBlk x1 t (ix3 0 c f)

/-- THE BLOCK ENTRY: what the body stores at (0, h, w, f) is the sharpened cosine of the patch at (h, w) against
    filter f — the nine taps accumulated from zero, the total divided by the patch norm plus q·q, the sign times
    exp (p·p · log (|y| + ε)) plus the bias. -/
theorem body_apply (x0 : Vec Ideal S1x114x114x64 .f32) (x1 : Vec Ideal S9x64x128 .f32) (x2 x3 : Vec Ideal S1x128 .f32)
    (x4 : Vec Ideal S1x1 .f32) (h w : Fin 112) (f : Fin 128) :
    out0_5 (F := Ideal) x0 x1 x2 x3 x4 (ix4 0 h w f)
      = SharpCos.sharpExpLog (SharpCos.cosTaps (patchOf x0 h w) (filterOf x1 f) (x4 (ix2 0 0))) (x3 (ix2 0 f)) (x2 (ix2 0 f)) := by
  unfold out0_5
  rw [View.canon_unit_zero zero4]
  rw [ld_tap0, ld_tap1, ld_tap2, ld_tap3, ld_tap4, ld_tap5, ld_tap6, ld_tap7, ld_tap8,
    ld_w0, ld_w1, ld_w2, ld_w3, ld_w4, ld_w5, ld_w6, ld_w7, ld_w8,
    View.ld_unit_zero (S := S1x1) zero2, View.ld_unit_zero (S := S1x128) zero2 _ x3, View.ld_unit_zero (S := S1x128) zero2 _ x2]
  rw [pay1_apply, pay19_apply, pay21_apply, pay20_apply, pay18_apply, pay14_apply, pay11_apply, pay5_apply, pay17_apply,
    pay16_apply, pay10_apply, pay4_apply, pay7_apply]
  rfl

end Cert.KernelIdeal.Taps

end
-- ==== Proof.KernelValue.lean ====
/-
  The kernel's output array as one function of the arrays the region finds.

  Grid point t handles image t: its input block is the whole padded image t, the weights, bias, exponent and
  offset blocks are the whole arrays, and it writes back block t of the output. So the output array after the
  run is, at (b, h, w, f), the sharpened cosine of the patch of padded image b at (h, w) against filter f —
  every index is in exactly the block of the point t = b.
-/
import proofs.«103185_j89326729822460_1_alg».proof.Proof.Gen.KernelIdeal.Frame
import proofs.«103185_j89326729822460_1_alg».proof.Proof.SharpCosDefs
import Idealize.ShloMosaic.Lib.Pipeline.Value
import Idealize.ShloMosaic.Lib.ValueIdx
import Idealize.ShloMosaic.PureOps.Ideal.Laws
import proofs.«103185_j89326729822460_1_alg».proof.Proof.KernelBody

noncomputable section

namespace Cert.KernelIdeal.ArrayValue

open Cert.KernelIdeal Cert.KernelIdeal.Gen Cert.KernelIdeal.Taps Idealize.ShloMosaic Idealize.ShloMosaic.TcCoe Idealize.SL.Sem
open Idealize.ShloMosaic.Pipeline (Dat)
open Idealize.ShloMosaic.ValueIdx

/-- The patch of padded image b at position (h, w): tap t reads (h + t / 3, w + t % 3). -/
def patchAt (P : S16x114x114x64.Idx → EReal) (b : Fin 16) (h w : Fin 112) : Fin 9 → Fin 64 → EReal := fun t c =>
  P (ix4 b ⟨h.val + t.val / 3, by have := h.isLt; have := t.isLt; omega⟩
      ⟨w.val + t.val % 3, by have := w.isLt; have := t.isLt; omega⟩ c)

/-- Filter f's column of the nine weight slices. -/
def filterAt (WS : S9x64x128.Idx → EReal) (f : Fin 128) : Fin 9 → Fin 64 → EReal := fun t c => WS (ix3 t c f)

/-- The output array as a function of the padded images, the scaled weight slices, the bias and exponent rows and the
    offset, in the tap-by-tap arrangement. -/
def outTaps (P : S16x114x114x64.Idx → EReal) (WS : S9x64x128.Idx → EReal) (B2 P2 : S1x128.Idx → EReal) (Q2 : S1x1.Idx → EReal) :
    S16x112x112x128.Idx → EReal := fun i =>
  SharpCos.sharpExpLog
    (SharpCos.cosTaps (patchAt P ⟨(i 0).val, (i 0).isLt⟩ ⟨(i 1).val, (i 1).isLt⟩ ⟨(i 2).val, (i 2).isLt⟩)
      (filterAt WS ⟨(i 3).val, (i 3).isLt⟩) (Q2 (ix2 0 0)))
    (P2 (ix2 0 ⟨(i 3).val, (i 3).isLt⟩)) (B2 (ix2 0 ⟨(i 3).val, (i 3).isLt⟩))

/-- Padded image b as a block: the block index with b in front. -/
def imgIdx (b : Fin 16) (z : S1x114x114x64.Idx) : S16x114x114x64.Idx :=
  ix4 b ⟨(z 1).val, (z 1).isLt⟩ ⟨(z 2).val, (z 2).isLt⟩ ⟨(z 3).val, (z 3).isLt⟩

/-- The body on image b's block and the whole side arrays leaves, at block entry y, the array function at (b, y). -/
theorem block_entry (P : S16x114x114x64.Idx → EReal) (WS : S9x64x128.Idx → EReal) (B2 P2 : S1x128.Idx → EReal)
    (Q2 : S1x1.Idx → EReal) (b : Fin 16) (y : S1x112x112x128.Idx) :
    out0_5 (F := Ideal) (fun z => P (imgIdx b z)) WS B2 P2 Q2 y
      = outTaps P WS B2 P2 Q2 (ix4 b ⟨(y 1).val, (y 1).isLt⟩ ⟨(y 2).val, (y 2).isLt⟩ ⟨(y 3).val, (y 3).isLt⟩) := by
  obtain ⟨h, w, f, rfl⟩ : ∃ (h w : Fin 112) (f : Fin 128), y = ix4 0 h w f :=
    ⟨⟨(y 1).val, (y 1).isLt⟩, ⟨(y 2).val, (y 2).isLt⟩, ⟨(y 3).val, (y 3).isLt⟩, funext fun a => by
      match a with
      | ⟨0, _⟩ => exact Fin.ext (by have h0 : (y 0).val < 1 := (y 0).isLt; show (y 0).val = 0; omega)
      | ⟨1, _⟩ => rfl
      | ⟨2, _⟩ => rfl
      | ⟨3, _⟩ => rfl⟩
  rw [body_apply]
  rfl

variable (m : (ℓ : Loc nD τ sig) → Buf (Elt Ideal) ℓ) (ρ : Dev nD → PrngReg)

/-- The printed index maps over the sixteen grid points: the image and output windows are at block t on the batch
    axis and 0 elsewhere, the side windows at block 0 on every axis. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 4) = t.val ∧ win0_5.index t (1 : Fin 4) = 0 ∧ win0_5.index t (2 : Fin 4) = 0 ∧ win0_5.index t (3 : Fin 4) = 0 :=
  (by decide +kernel : ∀ t : Fin grid0.N, _)

/-- WHAT POINT t WRITES BACK is block t of the array function of the arrays as the region finds them. -/
theorem flushed_eq (c : Dev nD) (t : Fin cfg0.N) :
    (dats m 0 c).flushed 5 t = ((cfg0.win 5).blk t).view.read (Elt Ideal)
      (outTaps (V m c main_call0_v0) (V m c main_call0_v10) (V m c main_call0_v11) (V m c main_call0_v12) (V m c main_call0_v13)) := by
  show (cfg0.win 5).cut (grid0.coords t) ((dats m 0 c).after 5 t) = _
  rw [after0_5]
  obtain ⟨a0, a1, a2, a3, b0, b1, b2, c0, c1, d0, d1, e0, e1, f0, f1, f2, f3⟩ := idx_facts t
  have ht : t.val < 16 := lt_of_lt_of_eq t.isLt N_0
  have r0 : iblk m c 0 t = fun z => V m c main_call0_v0 (imgIdx ⟨t.val, ht⟩ z) := by
    funext z
    show V m c main_call0_v0 (((cfg0.win 0).blk t).view.emb z) = _
    refine congrArg _ (funext fun a => Fin.ext ?_)
    match a with
    | ⟨0, _⟩ => show win0_0.index t (0 : Fin 4) * 1 + 1 * (z 0).val = t.val; have hz : (z 0).val < 1 := (z 0).isLt; omega
    | ⟨1, _⟩ => show win0_0.index t (1 : Fin 4) * 114 + 1 * (z 1).val = (z 1).val; omega
    | ⟨2, _⟩ => show win0_0.index t (2 : Fin 4) * 114 + 1 * (z 2).val = (z 2).val; omega
    | ⟨3, _⟩ => show win0_0.index t (3 : Fin 4) * 64 + 1 * (z 3).val = (z 3).val; omega
  have r1 : iblk m c 1 t = V m c main_call0_v10 := by
    funext z
    show V m c main_call0_v10 (((cfg0.win 1).blk t).view.emb z) = _
    refine congrArg _ (funext fun a => Fin.ext ?_)
    match a with
    | ⟨0, _⟩ => show win0_1.index t (0 : Fin 3) * 9 + 1 * (z 0).val = (z 0).val; omega
    | ⟨1, _⟩ => show win0_1.index t (1 : Fin 3) * 64 + 1 * (z 1).val = (z 1).val; omega
    | ⟨2, _⟩ => show win0_1.index t (2 : Fin 3) * 128 + 1 * (z 2).val = (z 2).val; omega
  have r2 : iblk m c 2 t = V m c main_call0_v11 := by
    funext z
    show V m c main_call0_v11 (((cfg0.win 2).blk t).view.emb z) = _
    refine congrArg _ (funext fun a => Fin.ext ?_)
    match a with
    | ⟨0, _⟩ => show win0_2.index t (0 : Fin 2) * 1 + 1 * (z 0).val = (z 0).val; omega
    | ⟨1, _⟩ => show win0_2.index t (1 : Fin 2) * 128 + 1 * (z 1).val = (z 1).val; omega
  have r3 : iblk m c 3 t = V m c main_call0_v12 := by
    funext z
    show V m c main_call0_v12 (((cfg0.win 3).blk t).view.emb z) = _
    refine congrArg _ (funext fun a => Fin.ext ?_)
    match a with
    | ⟨0, _⟩ => show win0_3.index t (0 : Fin 2) * 1 + 1 * (z 0).val = (z 0).val; omega
    | ⟨1, _⟩ => show win0_3.index t (1 : Fin 2) * 128 + 1 * (z 1).val = (z 1).val; omega
  have r4 : iblk m c 4 t = V m c main_call0_v13 := by
    funext z
    show V m c main_call0_v13 (((cfg0.win 4).blk t).view.emb z) = _
    refine congrArg _ (funext fun a => Fin.ext ?_)
    match a with
    | ⟨0, _⟩ => show win0_4.index t (0 : Fin 2) * 1 + 1 * (z 0).val = (z 0).val; omega
    | ⟨1, _⟩ => show win0_4.index t (1 : Fin 2) * 1 + 1 * (z 1).val = (z 1).val; omega
  rw [r0, r1, r2, r3, r4]
  funext j
  refine (block_entry (V m c main_call0_v0) (V m c main_call0_v10) (V m c main_call0_v11) (V m c main_call0_v12)
    (V m c main_call0_v13) ⟨t.val, ht⟩ j).trans ?_
  show outTaps (V m c main_call0_v0) (V m c main_call0_v10) (V m c main_call0_v11) (V m c main_call0_v12) (V m c main_call0_v13) _
    = outTaps (V m c main_call0_v0) (V m c main_call0_v10) (V m c main_call0_v11) (V m c main_call0_v12) (V m c main_call0_v13)
        (((cfg0.win 5).blk t).view.emb j)
  refine congrArg _ (funext fun a => Fin.ext ?_)
  match a with
  | ⟨0, _⟩ => show t.val = win0_5.index t (0 : Fin 4) * 1 + 1 * (j 0).val; have hj : (j 0).val < 1 := (j 0).isLt; omega
  | ⟨1, _⟩ => show (j 1).val = win0_5.index t (1 : Fin 4) * 112 + 1 * (j 1).val; omega
  | ⟨2, _⟩ => show (j 2).val = win0_5.index t (2 : Fin 4) * 112 + 1 * (j 2).val; omega
  | ⟨3, _⟩ => show (j 3).val = win0_5.index t (3 : Fin 4) * 128 + 1 * (j 3).val; omega

/-- An index of the output array is in point t's block iff each coordinate is in the block's range on its axis. -/
theorem mem_blk (t : Fin cfg0.N) (i : S16x112x112x128.Idx) :
    i ∈ ((cfg0.win 5).blk t).view.set ↔ ∀ a : Fin 4, win0_5.index t a * S1x112x112x128.size a ≤ (i a).val
      ∧ (i a).val < win0_5.index t a * S1x112x112x128.size a + S1x112x112x128.size a := by
  show i ∈ ((View.whole main_v0).slice (win0_5.rect t)).set ↔ _
  rw [View.set_slice_whole, Rect.mem_set_unit]
  exact Iff.rfl

/-- Every index (b, h, w, f) is in the block of the point t = b. -/
theorem cover (i : S16x112x112x128.Idx) :
    ∃ t : Fin cfg0.N, (cfg0.win 5).flush t = true ∧ i ∈ ((cfg0.win 5).blk t).view.set := by
  have hi0 : (i 0).val < 16 := (i 0).isLt
  have hi1 : (i 1).val < 112 := (i 1).isLt
  have hi2 : (i 2).val < 112 := (i 2).isLt
  have hi3 : (i 3).val < 128 := (i 3).isLt
  let t : Fin cfg0.N := ⟨(i 0).val, lt_of_lt_of_eq hi0 N_0.symm⟩
  obtain ⟨-, -, -, -, -, -, -, -, -, -, -, -, -, f0, f1, f2, f3⟩ := idx_facts t
  have ht : t.val = (i 0).val := rfl
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 112 ≤ (i 1).val ∧ (i 1).val < win0_5.index t (1 : Fin 4) * 112 + 112; omega
  | ⟨2, _⟩ => show win0_5.index t (2 : Fin 4) * 112 ≤ (i 2).val ∧ (i 2).val < win0_5.index t (2 : Fin 4) * 112 + 112; omega
  | ⟨3, _⟩ => show win0_5.index t (3 : Fin 4) * 128 ≤ (i 3).val ∧ (i 3).val < win0_5.index t (3 : Fin 4) * 128 + 128; omega

/-- THE OUTPUT ARRAY after the run is the array function of the arrays the region finds. -/
theorem final (c : Dev nD) : (dats m 0 c).arrAt 5 cfg0.N
    = outTaps (V m c main_call0_v0) (V m c main_call0_v10) (V m c main_call0_v11) (V m c main_call0_v12) (V m c main_call0_v13) :=
  (dats m 0 c).arrAt_eq_of_cover 5 _ (fun t _ => flushed_eq m c t) cover

/-- The frame run re-posted: the output array at its function of the region-entry arrays, the arguments unchanged. -/
theorem run : θ_run defs (onTc (τ := τ) (main (F := Ideal))) ⟨m, fun _ => 0, ρ⟩ fun r => ∀ c : Dev nD,
      r.2.mem ((c : Thread nD τ).loc main_v0)
        = outTaps (V m c main_call0_v0) (V m c main_call0_v10) (V m c main_call0_v11) (V m c main_call0_v12) (V m c main_call0_v13)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.ArrayValue

end
-- ==== Proof.KernelHost.lean ====
/-
  The arrays the region finds, as functions of the arguments.

  Before the kernel is launched the host zero-pads the images (one halo row and column on each side), drops the
  weights' unit axis, divides every weight by its column's clamped norm sqrt (max (∑ₖ w², ε)) and cuts the 576 rows
  into nine slices of 64; bias, exponent and offset only gain a unit axis. Read at an index:
      scaled weights (t, c, f) = w(0, t·64 + c, f) / sqrt (max (0 + ∑ₖ w(0,k,f)², ε)).
-/
import proofs.«103185_j89326729822460_1_alg».proof.Proof.Gen.KernelIdeal.Frame
import proofs.«103185_j89326729822460_1_alg».proof.Proof.SharpCosDefs
import Idealize.ShloMosaic.Lib.Pipeline.Value
import Idealize.ShloMosaic.Lib.ValueIdx
import Idealize.ShloMosaic.PureOps.Ideal.Laws
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

/-- The zero the host pads with: the integer 0 converted to f32. -/
def padValue : S_.Idx → EReal := sitofp (F := Ideal) .f32 (constantI S_ 32 0#32)

/-- The zero-padded images. -/
def padded (X : S16x112x112x64.Idx → EReal) : S16x114x114x64.Idx → EReal :=
  pad S16x114x114x64 ![0, 1, 1, 0] ![0, 1, 1, 0] ![0, 0, 0, 0] X padValue pads_S16x112x112x64_S16x114x114x64_000_110_110_000 h_S_

/-- The weights with their unit axis dropped. -/
def w2 (W : S1x576x128.Idx → EReal) : FVec Ideal S576x128 .f32 := shapeCast S576x128 W shapeCasts_S1x576x128_S576x128

/-- Each column's clamped norm, as a row. -/
def wnormRow (W : S1x576x128.Idx → EReal) : FVec Ideal S1x128 .f32 :=
  Host.sqrt (F := Ideal) (maximumf
    (broadcastInDim S1x128 ![1] bcast_S128_S1x128_1
      (Host.reduceAdd (F := Ideal) (mulf (w2 W) (w2 W)) (constant (F := Ideal) S_ .f32 0x00000000#32) reducesTo_S576x128_S128_d0 h_S_))
    (broadcastInDim S1x128 ![] bcast_S_S1x128 (constant (F := Ideal) S_ .f32 0x33D6BF95#32)))

/-- The weights divided by their column norms, cut into nine slices. -/
def scaledW (W : S1x576x128.Idx → EReal) : S9x64x128.Idx → EReal :=
  shapeCast S9x64x128
    (Host.divf (F := Ideal) (w2 W) (broadcastInDim S576x128 ![0, 1] bcast_S1x128_S576x128_0_1 (wnormRow W)))
    shapeCasts_S576x128_S9x64x128

/-- The weights without their unit axis, at row k and filter f. -/
theorem w2_apply (W : S1x576x128.Idx → EReal) (k : Fin 576) (f : Fin 128) : w2 W (ix2 k f) = W (ix3 0 k f) := by
  unfold w2
  refine shapeCast_apply _ _ (ix2 k f) (ix3 0 k f) ?_
  rw [Shape.rowMajor_val_two, Shape.rowMajor_val_three]
  show (0 * 576 + k.val) * 128 + f.val = k.val * 128 + f.val
  omega

/-- Column f's clamped norm. -/
theorem wnormRow_apply (W : S1x576x128.Idx → EReal) (f : Fin 128) :
    wnormRow W (ix2 0 f) = SharpCos.colNorm (fun k => W (ix3 0 k f)) := by
  unfold wnormRow SharpCos.colNorm SharpCos.eps
  show Ideal.sqrt (max
      (broadcastInDim S1x128 ![1] bcast_S128_S1x128_1
        (Host.reduceAdd (F := Ideal) (mulf (w2 W) (w2 W)) (constant (F := Ideal) S_ .f32 0x00000000#32) reducesTo_S576x128_S128_d0 h_S_) (ix2 0 f))
      (broadcastInDim S1x128 ![] bcast_S_S1x128 (constant (F := Ideal) S_ .f32 0x33D6BF95#32) (ix2 0 f))) = _
  rw [broadcastInDim_apply ![1] bcast_S128_S1x128_1 _ (ix2 0 f) (ix1 f) (fun a => match a with
      | ⟨0, _⟩ => by show f.val = if (128 : Nat) = 1 then 0 else f.val; rw [if_neg (by decide)]),
    broadcastInDim_apply ![] bcast_S_S1x128 _ (ix2 0 f) ix0 (fun a => a.elim0)]
  simp only [Host.reduceAdd, Ideal.hostReduceAdd_def]
  rw [Ideal.hostReduceAdd_single reducesTo_S576x128_S128_d0 (by decide)]
  refine congrArg (fun s => Ideal.sqrt (max s _)) ?_
  refine congrArg₂ (· + ·) Ideal.ofBits_zero_f32 (Finset.sum_congr rfl fun (k : Fin 576) _ => ?_)
  have e : (by decide : S576x128.Reduces [0] S128).lift (ix1 f) k = ix2 k f :=
    funext fun a => Fin.ext (by match a with | ⟨0, _⟩ => rfl | ⟨1, _⟩ => rfl)
  rw [e]
  show w2 W (ix2 k f) * w2 W (ix2 k f) = _
  rw [w2_apply]

/-- A scaled weight: tap t, channel c, filter f is row t·64 + c of the weights over column f's clamped norm. -/
theorem scaledW_apply (W : S1x576x128.Idx → EReal) (t : Fin 9) (c : Fin 64) (f : Fin 128) :
    scaledW W (ix3 t c f)
      = Ideal.div (W (ix3 0 (⟨t.val * 64 + c.val, by have := t.isLt; have := c.isLt; omega⟩ : Fin 576) f))
          (SharpCos.colNorm fun k => W (ix3 0 k f)) := by
  unfold scaledW
  refine (shapeCast_apply _ _ (ix3 t c f) (ix2 (⟨t.val * 64 + c.val, by have := t.isLt; have := c.isLt; omega⟩ : Fin 576) f) ?_).trans ?_
  · rw [Shape.rowMajor_val_two, Shape.rowMajor_val_three]
    show (t.val * 64 + c.val) * 128 + f.val = (t.val * 64 + c.val) * 128 + f.val
    rfl
  show Ideal.div (w2 W (ix2 _ f)) (broadcastInDim S576x128 ![0, 1] bcast_S1x128_S576x128_0_1 (wnormRow W) (ix2 _ f)) = _
  rw [w2_apply, broadcastInDim_apply ![0, 1] bcast_S1x128_S576x128_0_1 (wnormRow W) (ix2 _ f) (ix2 0 f) (fun a => match a with
      | ⟨0, _⟩ => by show 0 = if (1 : Nat) = 1 then 0 else t.val * 64 + c.val; rw [if_pos rfl]
      | ⟨1, _⟩ => by show f.val = if (128 : Nat) = 1 then 0 else f.val; rw [if_neg (by decide)]),
    wnormRow_apply]

/-- A row [128] given a leading unit axis. -/
theorem row_apply (B : S128.Idx → EReal) (f : Fin 128) : shapeCast S1x128 B shapeCasts_S128_S1x128 (ix2 0 f) = B (ix1 f) := by
  refine shapeCast_apply _ _ (ix2 0 f) (ix1 f) ?_
  rw [Shape.rowMajor_val_one, Shape.rowMajor_val_two]
  show f.val = 0 * 128 + f.val
  omega

/-- The offset [1] given a second unit axis. -/
theorem offset_apply (Q : S1.Idx → EReal) : shapeCast S1x1 Q shapeCasts_S1_S1x1 (ix2 0 0) = Q (ix1 0) := by
  refine shapeCast_apply _ _ (ix2 0 0) (ix1 0) ?_
  rw [Shape.rowMajor_val_one, Shape.rowMajor_val_two]
  rfl

variable (m : (ℓ : Loc nD τ sig) → Buf (Elt Ideal) ℓ)

theorem V_padded (c : Dev nD) :
    (V m c main_call0_v0 : S16x114x114x64.Idx → EReal) = padded (m ((c : Thread nD τ).loc main_arg0)) := by
  unfold V; after_results; rfl

theorem V_weights (c : Dev nD) :
    (V m c main_call0_v10 : S9x64x128.Idx → EReal) = scaledW (m ((c : Thread nD τ).loc main_arg1)) := by
  unfold V; after_results; rfl

theorem V_bias (c : Dev nD) :
    (V m c main_call0_v11 : S1x128.Idx → EReal) = shapeCast S1x128 (m ((c : Thread nD τ).loc main_arg2)) shapeCasts_S128_S1x128 := by
  unfold V; after_results; rfl

theorem V_exponent (c : Dev nD) :
    (V m c main_call0_v12 : S1x128.Idx → EReal) = shapeCast S1x128 (m ((c : Thread nD τ).loc main_arg3)) shapeCasts_S128_S1x128 := by
  unfold V; after_results; rfl

theorem V_offset (c : Dev nD) :
    (V m c main_call0_v13 : S1x1.Idx → EReal) = shapeCast S1x1 (m ((c : Thread nD τ).loc main_arg4)) shapeCasts_S1_S1x1 := by
  unfold V; after_results; rfl

end Cert.KernelIdeal.HostSide

end
-- ==== Proof.RefValue.lean ====
/-
  The reference's result, read entry by entry.

  The reference gathers the nine shifted copies of the zero-padded images into patches of 576 entries per output
  position (row n = h·112 + w of image b), divides every patch entry by the patch norm
  sqrt (max (0 + ∑ₖ x², ε)) + q·q, divides every weight by its column's clamped norm, contracts the two over the
  576 entries in one sum, and sharpens: sign y · (|y| + ε) ^ (p·p) + bias.
-/
import proofs.«103185_j89326729822460_1_alg».proof.Proof.Gen.ReferenceIdeal.Read
import proofs.«103185_j89326729822460_1_alg».proof.Proof.SharpCosDefs
import Idealize.ShloMosaic.Lib.Pipeline.Value
import Idealize.ShloMosaic.Lib.ValueIdx
import Idealize.ShloMosaic.PureOps.Ideal.Laws

noncomputable section

namespace Cert.ReferenceIdeal.Entries

open Cert.ReferenceIdeal Cert.ReferenceIdeal.Read Idealize.ShloMosaic Idealize.ShloMosaic.TcCoe
open Idealize.ShloMosaic.ValueIdx

/-- The patch of image b at flattened position n: its 576 entries. -/
def patchRow (x0 : (⟨S16x112x112x64, .f32⟩ : BufTy).Contents (Elt Ideal)) (b : Fin 16) (n : Fin 12544) : Fin 576 → EReal :=
  fun k => val_main_v20 (F := Ideal) x0 (ix3 b n k)

/-- Filter f's column of the scaled weights. -/
def wcolRow (x1 : (⟨S1x576x128, .f32⟩ : BufTy).Contents (Elt Ideal)) (f : Fin 128) : Fin 576 → EReal :=
  fun k => val_main_v41 (F := Ideal) x1 (ix2 k f)

/-- The patch norm plus q·q, at image b, position n. -/
theorem norm_entry (x0 : (⟨S16x112x112x64, .f32⟩ : BufTy).Contents (Elt Ideal)) (x4 : (⟨S1, .f32⟩ : BufTy).Contents (Elt Ideal))
    (b : Fin 16) (n : Fin 12544) :
    val_main_v30 (F := Ideal) x0 x4 (ix3 b n 0) = SharpCos.normFlat (patchRow x0 b n) (x4 (ix1 0)) := by
  have e1 : ∀ k : Fin 576, idx_main_v22 (idx_main_v23 (ix3 b n (0 : Fin 1))) k = ix3 b n k := fun k =>
    funext fun a => Fin.ext (by match a with | ⟨0, _⟩ => rfl | ⟨1, _⟩ => rfl | ⟨2, _⟩ => rfl)
  have e2 : idx_main_v28 (idx_main_v29 (ix3 b n (0 : Fin 1))) = ix1 0 :=
    funext fun a => Fin.ext (by match a with | ⟨0, _⟩ => rfl)
  have hs : (∑ k : Fin 576, val_main_v21 (F := Ideal) x0 (idx_main_v22 (idx_main_v23 (ix3 b n (0 : Fin 1))) k))
      = ∑ k : Fin 576, patchRow x0 b n k * patchRow x0 b n k :=
    Finset.sum_congr rfl fun k _ => by
      rw [e1 k, val_main_v21_apply, Ideal.mulf_def]
      rfl
  rw [val_main_v30_apply, val_main_v26_apply, val_main_v25_apply, val_main_v23_apply, val_main_v22_apply, val_main_v24_apply,
    val_main_cst_0_apply, val_main_cst_apply, val_main_v29_apply, val_main_v28_apply, val_main_v27_apply, e2, hs,
    Ideal.addf_def, Ideal.hostUnary_sqrt_def, Ideal.maximumf_def, Ideal.mulf_def, Ideal.ofBits_def, Ideal.ofBits_def,
    Ideal.ofBits_zero_f32]
  rfl

/-- A scaled weight: the weight over its column's clamped norm (summed over the weights' unit axis from zero). -/
theorem wcol_entry (x1 : (⟨S1x576x128, .f32⟩ : BufTy).Contents (Elt Ideal)) (k : Fin 576) (f : Fin 128) :
    val_main_v41 (F := Ideal) x1 (ix2 k f)
      = 0 + ∑ u : Fin 1, Ideal.div (x1 (ix3 u k f)) (SharpCos.colNorm fun k' => x1 (ix3 0 k' f)) := by
  have e1 : ∀ u : Fin 1, idx_main_v41 (ix2 k f) u = ix3 u k f := fun u =>
    funext fun a => Fin.ext (by match a with | ⟨0, _⟩ => rfl | ⟨1, _⟩ => rfl | ⟨2, _⟩ => rfl)
  have e2 : ∀ (u : Fin 1) (k' : Fin 576), idx_main_v32 (idx_main_v33 (idx_main_v39 (ix3 u k f))) k' = ix3 0 k' f := fun u k' =>
    funext fun a => Fin.ext (by match a with | ⟨0, _⟩ => rfl | ⟨1, _⟩ => rfl | ⟨2, _⟩ => rfl)
  rw [val_main_v41_apply, val_main_cst_3_apply]
  simp only [e1, val_main_v40_apply, val_main_v39_apply, val_main_v36_apply, val_main_v35_apply, val_main_v33_apply,
    val_main_v32_apply, val_main_v34_apply, val_main_cst_2_apply, val_main_cst_1_apply, e2, val_main_v31_apply]
  simp only [Ideal.ofBits_def, Ideal.ofBits_zero_f32]
  rfl

/-- The cosine at image b, position n, filter f: one sum over the 576 patch entries. -/
theorem cos_entry (x0 : (⟨S16x112x112x64, .f32⟩ : BufTy).Contents (Elt Ideal)) (x1 : (⟨S1x576x128, .f32⟩ : BufTy).Contents (Elt Ideal))
    (x4 : (⟨S1, .f32⟩ : BufTy).Contents (Elt Ideal)) (b : Fin 16) (n : Fin 12544) (f : Fin 128) :
    val_main_v42 (F := Ideal) x0 x1 x4 (ix3 b n f) = SharpCos.cosFlat (patchRow x0 b n) (wcolRow x1 f) (x4 (ix1 0)) := by
  have e1 : ∀ k : Fin 576, lidx_main_v42 (ix3 b n f) k = ix3 b n k := fun k =>
    funext fun a => Fin.ext (by match a with | ⟨0, _⟩ => rfl | ⟨1, _⟩ => rfl | ⟨2, _⟩ => rfl)
  have e2 : ∀ k : Fin 576, ridx_main_v42 (ix3 b n f) k = ix2 k f := fun k =>
    funext fun a => Fin.ext (by match a with | ⟨0, _⟩ => rfl | ⟨1, _⟩ => rfl)
  have e3 : ∀ k : Fin 576, idx_main_v37 (ix3 b n k) = ix3 b n 0 := fun k =>
    funext fun a => Fin.ext (by match a with | ⟨0, _⟩ => rfl | ⟨1, _⟩ => rfl | ⟨2, _⟩ => rfl)
  rw [val_main_v42_apply]
  simp only [e1, e2, val_main_v38_apply, val_main_v37_apply, e3, norm_entry]
  rfl

/-- The result at (b, h, w, f): the sharpened cosine of position h·112 + w plus the bias. -/
theorem out_entry (x0 : (⟨S16x112x112x64, .f32⟩ : BufTy).Contents (Elt Ideal)) (x1 : (⟨S1x576x128, .f32⟩ : BufTy).Contents (Elt Ideal))
    (x2 x3 : (⟨S128, .f32⟩ : BufTy).Contents (Elt Ideal)) (x4 : (⟨S1, .f32⟩ : BufTy).Contents (Elt Ideal))
    (b : Fin 16) (h w : Fin 112) (f : Fin 128) :
    val_main_v55 (F := Ideal) x0 x1 x2 x3 x4 (ix4 b h w f)
      = SharpCos.sharpPow
          (val_main_v42 (F := Ideal) x0 x1 x4 (ix3 b (⟨h.val * 112 + w.val, by have := h.isLt; have := w.isLt; omega⟩ : Fin 12544) f))
          (x3 (ix1 f)) (x2 (ix1 f)) := by
  have hb := b.isLt
  have hh := h.isLt
  have hw := w.isLt
  have hf := f.isLt
  have e0 : idx_main_v55 (ix4 b h w f) = ix3 b (⟨h.val * 112 + w.val, by omega⟩ : Fin 12544) f :=
    funext fun a => Fin.ext (by
      match a with
      | ⟨0, _⟩ => show (((b.val * 112 + h.val) * 112 + w.val) * 128 + f.val) / 1605632 = b.val; omega
      | ⟨1, _⟩ => show (((b.val * 112 + h.val) * 112 + w.val) * 128 + f.val) / 128 % 12544 = h.val * 112 + w.val; omega
      | ⟨2, _⟩ => show (((b.val * 112 + h.val) * 112 + w.val) * 128 + f.val) % 128 = f.val; omega)
  rw [val_main_v55_apply, e0, val_main_v54_apply, val_main_v51_apply, val_main_v43_apply, val_main_v50_apply, val_main_v46_apply,
    val_main_v44_apply, val_main_v45_apply, val_main_cst_4_apply, val_main_v49_apply, val_main_v48_apply, val_main_v47_apply,
    val_main_v53_apply, val_main_v52_apply]
  have e1 : idx_main_v48 (idx_main_v49 (ix3 b (⟨h.val * 112 + w.val, by have := h.isLt; have := w.isLt; omega⟩ : Fin 12544) f)) = ix1 f :=
    funext fun a => Fin.ext (by match a with | ⟨0, _⟩ => rfl)
  have e2 : idx_main_v52 (idx_main_v53 (ix3 b (⟨h.val * 112 + w.val, by have := h.isLt; have := w.isLt; omega⟩ : Fin 12544) f)) = ix1 f :=
    funext fun a => Fin.ext (by match a with | ⟨0, _⟩ => rfl)
  rw [e1, e2]
  rfl

end Cert.ReferenceIdeal.Entries

end
-- ==== Proof.RefPatch.lean ====
/-
  An entry of the flattened 3×3 patches, read back to the zero-padded image.

  The patches are built in four steps: nine shifted windows of the padded image (window number 1 + 3·di + dj
  starts at row di and column dj, di, dj < 3), each given a unit axis, the nine joined along that axis, and the
  result flattened from (16, 112, 112, 9, 64) to (16, 112·112, 9·64). Reading the steps backwards at one index:
  the flat coordinates h·112 + w and t·64 + c split into (h, w) and (t, c) by division with remainder; coordinate
  t on the joined axis selects window t; and window t = 3·(t / 3) + t % 3 at (h, w) is the padded image at
  (h + t / 3, w + t % 3). Nothing about the padded image is used beyond its being one array.
-/
import proofs.«103185_j89326729822460_1_alg».proof.Proof.Gen.ReferenceIdeal.Read
import Idealize.ShloMosaic.Lib.Pipeline.Value
import Idealize.ShloMosaic.Lib.ValueIdx

noncomputable section

namespace Cert.ReferenceIdeal.Patch

open Cert.ReferenceIdeal Cert.ReferenceIdeal.Read Idealize.ShloMosaic Idealize.ShloMosaic.ValueIdx

/-- Flattening read backwards: the row-major position of (b, h·112 + w, t·64 + c) among (16, 12544, 576) is that of
    (b, h, w, t, c) among (16, 112, 112, 9, 64), by division with remainder. -/
theorem flat_idx (b : Fin 16) (h w : Fin 112) (t : Fin 9) (c : Fin 64) :
    idx_main_v20 (ix3 b (⟨h.val * 112 + w.val, by have := h.isLt; have := w.isLt; omega⟩ : Fin 12544)
        (⟨t.val * 64 + c.val, by have := t.isLt; have := c.isLt; omega⟩ : Fin 576))
      = ix5 b h w t c := by
  have hb := b.isLt; have hh := h.isLt; have hw := w.isLt; have ht := t.isLt; have hc := c.isLt
  funext a
  match a with
  | ⟨0, _⟩ => exact Fin.ext (by show ((b.val * 12544 + (h.val * 112 + w.val)) * 576 + (t.val * 64 + c.val)) / 7225344 = b.val; omega)
  | ⟨1, _⟩ => exact Fin.ext (by show ((b.val * 12544 + (h.val * 112 + w.val)) * 576 + (t.val * 64 + c.val)) / 64512 % 112 = h.val; omega)
  | ⟨2, _⟩ => exact Fin.ext (by show ((b.val * 12544 + (h.val * 112 + w.val)) * 576 + (t.val * 64 + c.val)) / 576 % 112 = w.val; omega)
  | ⟨3, _⟩ => exact Fin.ext (by show ((b.val * 12544 + (h.val * 112 + w.val)) * 576 + (t.val * 64 + c.val)) / 64 % 9 = t.val; omega)
  | ⟨4, _⟩ => exact Fin.ext (by show ((b.val * 12544 + (h.val * 112 + w.val)) * 576 + (t.val * 64 + c.val)) % 64 = c.val; omega)

/-- Off the joined axis, the index (b, h, w, 0, c) of a piece and the index (b, h, w, t, c) of the whole have the
    same coordinates. -/
theorem off_axis (b : Fin 16) (h w : Fin 112) (t : Fin 9) (c : Fin 64)
    (hr : S16x112x112x1x64.rank = S16x112x112x9x64.rank) (d : Fin S16x112x112x1x64.rank)
    (hd : d.cast hr ≠ (3 : Fin S16x112x112x9x64.rank)) :
    ((ix5 b h w (0 : Fin 1) c : S16x112x112x1x64.Idx) d).val
      = ((ix5 b h w t c : S16x112x112x9x64.Idx) (d.cast hr)).val := by
  match d, hd with
  | ⟨0, _⟩, _ => rfl
  | ⟨1, _⟩, _ => rfl
  | ⟨2, _⟩, _ => rfl
  | ⟨3, _⟩, hd => exact absurd rfl hd
  | ⟨4, _⟩, _ => rfl

/-- The nine pieces joined along axis 3 each have extent one there, so coordinate k on that axis falls in piece k,
    at its coordinate 0: k pieces of extent one come before it. -/
local macro "read_piece " k:num " of " y:term : tactic => `(tactic| (
  unfold val_main_v19
  refine concatenate_apply_piece _ _ _ _ $k ?_ S16x112x112x1x64 $y ?_ ?_ $k ?_ (ix5 _ _ _ (0 : Fin 1) _) ?_ ?_
  · exact (by decide : ($k : Nat) < 9)
  · rfl
  · rfl
  · rfl
  · exact off_axis _ _ _ _ _ _
  · rfl))

theorem piece0 (x0 : (⟨S16x112x112x64, .f32⟩ : BufTy).Contents (Elt Ideal)) (b : Fin 16) (h w : Fin 112) (c : Fin 64) (hk : 0 < 9) :
    val_main_v19 (F := Ideal) x0 (ix5 b h w (⟨0, hk⟩ : Fin 9) c)
      = val_main_v10 (F := Ideal) x0 (ix5 b h w (0 : Fin 1) c) := by
  read_piece 0 of (val_main_v10 (F := Ideal) x0)

theorem piece1 (x0 : (⟨S16x112x112x64, .f32⟩ : BufTy).Contents (Elt Ideal)) (b : Fin 16) (h w : Fin 112) (c : Fin 64) (hk : 1 < 9) :
    val_main_v19 (F := Ideal) x0 (ix5 b h w (⟨1, hk⟩ : Fin 9) c)
      = val_main_v11 (F := Ideal) x0 (ix5 b h w (0 : Fin 1) c) := by
  read_piece 1 of (val_main_v11 (F := Ideal) x0)

theorem piece2 (x0 : (⟨S16x112x112x64, .f32⟩ : BufTy).Contents (Elt Ideal)) (b : Fin 16) (h w : Fin 112) (c : Fin 64) (hk : 2 < 9) :
    val_main_v19 (F := Ideal) x0 (ix5 b h w (⟨2, hk⟩ : Fin 9) c)
      = val_main_v12 (F := Ideal) x0 (ix5 b h w (0 : Fin 1) c) := by
  read_piece 2 of (val_main_v12 (F := Ideal) x0)

theorem piece3 (x0 : (⟨S16x112x112x64, .f32⟩ : BufTy).Contents (Elt Ideal)) (b : Fin 16) (h w : Fin 112) (c : Fin 64) (hk : 3 < 9) :
    val_main_v19 (F := Ideal) x0 (ix5 b h w (⟨3, hk⟩ : Fin 9) c)
      = val_main_v13 (F := Ideal) x0 (ix5 b h w (0 : Fin 1) c) := by
  read_piece 3 of (val_main_v13 (F := Ideal) x0)

theorem piece4 (x0 : (⟨S16x112x112x64, .f32⟩ : BufTy).Contents (Elt Ideal)) (b : Fin 16) (h w : Fin 112) (c : Fin 64) (hk : 4 < 9) :
    val_main_v19 (F := Ideal) x0 (ix5 b h w (⟨4, hk⟩ : Fin 9) c)
      = val_main_v14 (F := Ideal) x0 (ix5 b h w (0 : Fin 1) c) := by
  read_piece 4 of (val_main_v14 (F := Ideal) x0)

theorem piece5 (x0 : (⟨S16x112x112x64, .f32⟩ : BufTy).Contents (Elt Ideal)) (b : Fin 16) (h w : Fin 112) (c : Fin 64) (hk : 5 < 9) :
    val_main_v19 (F := Ideal) x0 (ix5 b h w (⟨5, hk⟩ : Fin 9) c)
      = val_main_v15 (F := Ideal) x0 (ix5 b h w (0 : Fin 1) c) := by
  read_piece 5 of (val_main_v15 (F := Ideal) x0)

theorem piece6 (x0 : (⟨S16x112x112x64, .f32⟩ : BufTy).Contents (Elt Ideal)) (b : Fin 16) (h w : Fin 112) (c : Fin 64) (hk : 6 < 9) :
    val_main_v19 (F := Ideal) x0 (ix5 b h w (⟨6, hk⟩ : Fin 9) c)
      = val_main_v16 (F := Ideal) x0 (ix5 b h w (0 : Fin 1) c) := by
  read_piece 6 of (val_main_v16 (F := Ideal) x0)

theorem piece7 (x0 : (⟨S16x112x112x64, .f32⟩ : BufTy).Contents (Elt Ideal)) (b : Fin 16) (h w : Fin 112) (c : Fin 64) (hk : 7 < 9) :
    val_main_v19 (F := Ideal) x0 (ix5 b h w (⟨7, hk⟩ : Fin 9) c)
      = val_main_v17 (F := Ideal) x0 (ix5 b h w (0 : Fin 1) c) := by
  read_piece 7 of (val_main_v17 (F := Ideal) x0)

theorem piece8 (x0 : (⟨S16x112x112x64, .f32⟩ : BufTy).Contents (Elt Ideal)) (b : Fin 16) (h w : Fin 112) (c : Fin 64) (hk : 8 < 9) :
    val_main_v19 (F := Ideal) x0 (ix5 b h w (⟨8, hk⟩ : Fin 9) c)
      = val_main_v18 (F := Ideal) x0 (ix5 b h w (0 : Fin 1) c) := by
  read_piece 8 of (val_main_v18 (F := Ideal) x0)

/-- Entry (b, h·112 + w, t·64 + c) of the flattened patches is the padded image b at (h + t / 3, w + t % 3),
    channel c. -/
theorem patch_entry (x0 : (⟨S16x112x112x64, .f32⟩ : BufTy).Contents (Elt Ideal)) (b : Fin 16) (h w : Fin 112) (t : Fin 9) (c : Fin 64) :
    val_main_v20 (F := Ideal) x0 (ix3 b (⟨h.val * 112 + w.val, by have := h.isLt; have := w.isLt; omega⟩ : Fin 12544) (⟨t.val * 64 + c.val, by have := t.isLt; have := c.isLt; omega⟩ : Fin 576))
      = val_main_v0 (F := Ideal) x0 (ix4 b (⟨h.val + t.val / 3, by have := h.isLt; have := t.isLt; omega⟩ : Fin 114) (⟨w.val + t.val % 3, by have := w.isLt; have := t.isLt; omega⟩ : Fin 114) c) := by
  rw [val_main_v20_apply, flat_idx]
  match t with
  | ⟨0, hk⟩ =>
    rw [piece0, val_main_v10_apply, val_main_v1_apply]
    refine congrArg (val_main_v0 (F := Ideal) x0) (funext fun a => ?_)
    match a with
    | ⟨0, _⟩ => rfl
    | ⟨1, _⟩ => exact Fin.ext (by show h.val = h.val + 0 / 3; omega)
    | ⟨2, _⟩ => exact Fin.ext (by show w.val = w.val + 0 % 3; omega)
    | ⟨3, _⟩ => rfl
  | ⟨1, hk⟩ =>
    rw [piece1, val_main_v11_apply, val_main_v2_apply]
    refine congrArg (val_main_v0 (F := Ideal) x0) (funext fun a => ?_)
    match a with
    | ⟨0, _⟩ => rfl
    | ⟨1, _⟩ => exact Fin.ext (by show h.val = h.val + 1 / 3; omega)
    | ⟨2, _⟩ => exact Fin.ext (by show 1 + w.val = w.val + 1 % 3; omega)
    | ⟨3, _⟩ => rfl
  | ⟨2, hk⟩ =>
    rw [piece2, val_main_v12_apply, val_main_v3_apply]
    refine congrArg (val_main_v0 (F := Ideal) x0) (funext fun a => ?_)
    match a with
    | ⟨0, _⟩ => rfl
    | ⟨1, _⟩ => exact Fin.ext (by show h.val = h.val + 2 / 3; omega)
    | ⟨2, _⟩ => exact Fin.ext (by show 2 + w.val = w.val + 2 % 3; omega)
    | ⟨3, _⟩ => rfl
  | ⟨3, hk⟩ =>
    rw [piece3, val_main_v13_apply, val_main_v4_apply]
    refine congrArg (val_main_v0 (F := Ideal) x0) (funext fun a => ?_)
    match a with
    | ⟨0, _⟩ => rfl
    | ⟨1, _⟩ => exact Fin.ext (by show 1 + h.val = h.val + 3 / 3; omega)
    | ⟨2, _⟩ => exact Fin.ext (by show w.val = w.val + 3 % 3; omega)
    | ⟨3, _⟩ => rfl
  | ⟨4, hk⟩ =>
    rw [piece4, val_main_v14_apply, val_main_v5_apply]
    refine congrArg (val_main_v0 (F := Ideal) x0) (funext fun a => ?_)
    match a with
    | ⟨0, _⟩ => rfl
    | ⟨1, _⟩ => exact Fin.ext (by show 1 + h.val = h.val + 4 / 3; omega)
    | ⟨2, _⟩ => exact Fin.ext (by show 1 + w.val = w.val + 4 % 3; omega)
    | ⟨3, _⟩ => rfl
  | ⟨5, hk⟩ =>
    rw [piece5, val_main_v15_apply, val_main_v6_apply]
    refine congrArg (val_main_v0 (F := Ideal) x0) (funext fun a => ?_)
    match a with
    | ⟨0, _⟩ => rfl
    | ⟨1, _⟩ => exact Fin.ext (by show 1 + h.val = h.val + 5 / 3; omega)
    | ⟨2, _⟩ => exact Fin.ext (by show 2 + w.val = w.val + 5 % 3; omega)
    | ⟨3, _⟩ => rfl
  | ⟨6, hk⟩ =>
    rw [piece6, val_main_v16_apply, val_main_v7_apply]
    refine congrArg (val_main_v0 (F := Ideal) x0) (funext fun a => ?_)
    match a with
    | ⟨0, _⟩ => rfl
    | ⟨1, _⟩ => exact Fin.ext (by show 2 + h.val = h.val + 6 / 3; omega)
    | ⟨2, _⟩ => exact Fin.ext (by show w.val = w.val + 6 % 3; omega)
    | ⟨3, _⟩ => rfl
  | ⟨7, hk⟩ =>
    rw [piece7, val_main_v17_apply, val_main_v8_apply]
    refine congrArg (val_main_v0 (F := Ideal) x0) (funext fun a => ?_)
    match a with
    | ⟨0, _⟩ => rfl
    | ⟨1, _⟩ => exact Fin.ext (by show 2 + h.val = h.val + 7 / 3; omega)
    | ⟨2, _⟩ => exact Fin.ext (by show 1 + w.val = w.val + 7 % 3; omega)
    | ⟨3, _⟩ => rfl
  | ⟨8, hk⟩ =>
    rw [piece8, val_main_v18_apply, val_main_v9_apply]
    refine congrArg (val_main_v0 (F := Ideal) x0) (funext fun a => ?_)
    match a with
    | ⟨0, _⟩ => rfl
    | ⟨1, _⟩ => exact Fin.ext (by show 2 + h.val = h.val + 8 / 3; omega)
    | ⟨2, _⟩ => exact Fin.ext (by show 2 + w.val = w.val + 8 % 3; omega)
    | ⟨3, _⟩ => rfl
  | ⟨n + 9, hk⟩ => exact absurd hk (by omega)

end Cert.ReferenceIdeal.Patch

end
-- ==== Proof.SharpCosLaws.lean ====
/-
  Laws of the sharpened cosine similarity over the extended reals.

  With real entries every sum is a real number; the clamp max (S, ε) is at least ε > 0, so its square root is a
  positive real and the norm sqrt (max (S, ε)) + q² is a positive real. Dividing by a positive real d is multiplying
  by 1 / d, so (∑ x · ws) · (1 / d) = ∑ (x · (1 / d)) · ws, and the nine-by-sixty-four index set is the flat one of
  576 entries read as (k / 64, k % 64). For the sharpening, the base |y| + ε is a positive real, and for a positive
  base b the power b ^ s is exp (log b · s).
-/
import proofs.«103185_j89326729822460_1_alg».proof.Proof.SharpCosDefs
import Mathlib.Data.Fintype.BigOperators
import Mathlib.Algebra.BigOperators.Fin
import Mathlib.Tactic

noncomputable section

namespace SharpCos

open Idealize.ShloMosaic

/-- The coercion of a finite sum of reals is the sum of the coercions. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a maximum of reals is the maximum of the coercions. -/
private theorem coe_max' (a b : ℝ) : ((max a b : ℝ) : EReal) = max (a : EReal) (b : EReal) :=
  EReal.coe_strictMono.monotone.map_max

/-- ε is the positive real 14073749 · 2⁻⁴⁷. -/
theorem eps_pos : ∃ e : ℝ, 0 < e ∧ eps = (e : EReal) := by
  refine ⟨14073749 * (2 : ℝ) ^ (-47 : ℤ), by positivity, ?_⟩
  simp [eps, Ideal.ofBits, Ideal.ieee, -EReal.coe_mul]

/-- Accumulating nine terms from zero is their sum. -/
theorem acc9_eq_sum (g : Fin 9 → EReal) : acc9 g = ∑ t : Fin 9, g t := by
  rw [Fin.sum_univ_castSucc, Fin.sum_univ_eight, acc9, zero_add]
  rfl

/-- The flat coordinate k read as the pair (k / 64, k % 64), a bijection onto taps × channels. -/
private def tapChan : Fin 576 ≃ Fin 9 × Fin 64 where
  toFun k := (tapOf k, chanOf k)
  invFun p := ⟨p.1.val * 64 + p.2.val, by have := p.1.isLt; have := p.2.isLt; omega⟩
  left_inv k := by
    apply Fin.ext
    simp only [tapOf, chanOf]
    omega
  right_inv p := by
    have h1 := p.1.isLt
    have h2 := p.2.isLt
    apply Prod.ext <;> apply Fin.ext <;> simp only [tapOf, chanOf] <;> omega

/-- A sum over the 576 flat coordinates is the double sum over taps and channels. -/
theorem sum_flat (g : Fin 9 → Fin 64 → EReal) :
    ∑ k : Fin 576, g (tapOf k) (chanOf k) = ∑ t : Fin 9, ∑ c : Fin 64, g t c := by
  rw [← Fintype.sum_prod_type']
  exact Fintype.sum_equiv tapChan _ _ (fun _ => rfl)

/-- The square root of a real clamped below by ε is a positive real. -/
private theorem sqrt_clamp_pos (S : ℝ) :
    ∃ r : ℝ, 0 < r ∧ Ideal.sqrt (max (S : EReal) eps) = (r : EReal) := by
  obtain ⟨e, he, hE⟩ := eps_pos
  have hpos : 0 < max S e := lt_max_of_lt_right he
  refine ⟨Real.sqrt (max S e), Real.sqrt_pos.mpr hpos, ?_⟩
  rw [hE, ← coe_max', Ideal.sqrt_coe, if_neg (not_lt.mpr hpos.le)]

/-- The clamped norm of a real column is a positive real. -/
theorem colNorm_pos (w : Fin 576 → EReal) (hw : ∀ k, IsReal (w k)) :
    ∃ r : ℝ, 0 < r ∧ colNorm w = (r : EReal) := by
  choose wr hwr using hw
  have hS : (0 : EReal) + ∑ k : Fin 576, w k * w k = ((∑ k : Fin 576, wr k * wr k : ℝ) : EReal) := by
    rw [zero_add, coe_sum]
    exact Finset.sum_congr rfl (fun k _ => by rw [hwr k, EReal.coe_mul])
  rw [colNorm, hS]
  exact sqrt_clamp_pos _

/-- A real divided by a positive real is a real: the quotient is the product with the reciprocal. -/
theorem div_isReal (a d : EReal) (ha : IsReal a) (hd : ∃ r : ℝ, 0 < r ∧ d = (r : EReal)) :
    IsReal (Ideal.div a d) := by
  obtain ⟨ar, rfl⟩ := ha
  obtain ⟨r, hr, rfl⟩ := hd
  rw [Ideal.div_coe hr.ne']
  exact ⟨ar * (1 / r), (EReal.coe_mul _ _).symm⟩

/-- A double sum of coercions is the coercion of the double sum. -/
private theorem coe_sum2 (f : Fin 9 → Fin 64 → ℝ) :
    (∑ t : Fin 9, ∑ c : Fin 64, (f t c : EReal)) = ((∑ t : Fin 9, ∑ c : Fin 64, f t c : ℝ) : EReal) := by
  rw [coe_sum]
  exact Finset.sum_congr rfl (fun t _ => (coe_sum _ _).symm)

/-- Products of reals summed tap by tap from zero: the real double sum. -/
private theorem taps_sum_real (a b : Fin 9 → Fin 64 → ℝ) :
    (acc9 fun t => ∑ c : Fin 64, (a t c : EReal) * (b t c : EReal))
      = ((∑ t : Fin 9, ∑ c : Fin 64, a t c * b t c : ℝ) : EReal) := by
  rw [acc9_eq_sum, ← coe_sum2]
  exact Finset.sum_congr rfl (fun t _ => Finset.sum_congr rfl (fun c _ => (EReal.coe_mul _ _).symm))

/-- The patch norm of real entries is a positive real. -/
private theorem normTaps_real (xr : Fin 9 → Fin 64 → ℝ) (qr : ℝ) :
    ∃ d : ℝ, 0 < d ∧ normTaps (fun t c => (xr t c : EReal)) (qr : EReal) = (d : EReal) := by
  obtain ⟨r, hr, hR⟩ := sqrt_clamp_pos (∑ t : Fin 9, ∑ c : Fin 64, xr t c * xr t c)
  refine ⟨r + qr * qr, add_pos_of_pos_of_nonneg hr (mul_self_nonneg qr), ?_⟩
  rw [normTaps, taps_sum_real, hR, ← EReal.coe_mul, ← EReal.coe_add]

/-- The cosine of real entries is a real. -/
theorem cosTaps_isReal (x ws : Fin 9 → Fin 64 → EReal) (q : EReal) (hx : ∀ t c, IsReal (x t c))
    (hw : ∀ t c, IsReal (ws t c)) (hq : IsReal q) : IsReal (cosTaps x ws q) := by
  choose xr hxr using hx
  choose wr hwr using hw
  obtain ⟨qr, rfl⟩ := hq
  obtain rfl : x = fun t c => (xr t c : EReal) := funext fun t => funext fun c => hxr t c
  obtain rfl : ws = fun t c => (wr t c : EReal) := funext fun t => funext fun c => hwr t c
  obtain ⟨d, hd, hD⟩ := normTaps_real xr qr
  rw [cosTaps, taps_sum_real]
  exact div_isReal _ _ ⟨_, rfl⟩ ⟨d, hd, hD⟩

/-- The flat norm of a patch laid out flat is its tap-by-tap norm. -/
private theorem normFlat_flat (x : Fin 9 → Fin 64 → EReal) (q : EReal) :
    normFlat (flat x) q = normTaps x q := by
  rw [normFlat, normTaps, acc9_eq_sum, zero_add]
  simp only [flat]
  rw [sum_flat (fun t c => x t c * x t c)]

/-- Scaling a double sum of products by 1 / d scales each first factor. -/
private theorem scale_sum (xr wr : Fin 9 → Fin 64 → ℝ) (d : ℝ) :
    (∑ t : Fin 9, ∑ c : Fin 64, xr t c * wr t c) * (1 / d)
      = ∑ t : Fin 9, ∑ c : Fin 64, xr t c * (1 / d) * wr t c := by
  rw [Finset.sum_mul]
  refine Finset.sum_congr rfl (fun t _ => ?_)
  rw [Finset.sum_mul]
  exact Finset.sum_congr rfl (fun c _ => by ring)

/-- The two arrangements of the cosine agree on real entries. -/
theorem cos_eq (x ws : Fin 9 → Fin 64 → EReal) (q : EReal) (hx : ∀ t c, IsReal (x t c))
    (hw : ∀ t c, IsReal (ws t c)) (hq : IsReal q) : cosTaps x ws q = cosFlat (flat x) (flat ws) q := by
  choose xr hxr using hx
  choose wr hwr using hw
  obtain ⟨qr, rfl⟩ := hq
  obtain rfl : x = fun t c => (xr t c : EReal) := funext fun t => funext fun c => hxr t c
  obtain rfl : ws = fun t c => (wr t c : EReal) := funext fun t => funext fun c => hwr t c
  obtain ⟨d, hd, hD⟩ := normTaps_real xr qr
  have hR : ∀ k : Fin 576,
      Ideal.div (flat (fun t c => (xr t c : EReal)) k) (d : EReal) * flat (fun t c => (wr t c : EReal)) k
        = (fun t c => ((xr t c * (1 / d) * wr t c : ℝ) : EReal)) (tapOf k) (chanOf k) := by
    intro k
    simp only [flat]
    rw [Ideal.div_coe hd.ne', ← EReal.coe_mul, ← EReal.coe_mul]
  rw [cosTaps, cosFlat, normFlat_flat, hD, taps_sum_real, Ideal.div_coe hd.ne', ← EReal.coe_mul,
    Finset.sum_congr rfl (fun k _ => hR k),
    sum_flat (fun t c => ((xr t c * (1 / d) * wr t c : ℝ) : EReal)), coe_sum2, scale_sum]

/-- The power written as exp (p² · log base) is the power taken directly: the base |y| + ε is a positive real. -/
theorem sharp_eq (y p b : EReal) (hy : IsReal y) (hp : IsReal p) : sharpExpLog y p b = sharpPow y p b := by
  obtain ⟨yr, rfl⟩ := hy
  obtain ⟨pr, rfl⟩ := hp
  obtain ⟨e, he, hE⟩ := eps_pos
  have hbase : max (yr : EReal) (-(yr : EReal)) + eps = ((max yr (-yr) + e : ℝ) : EReal) := by
    rw [hE, ← EReal.coe_neg, ← coe_max', ← EReal.coe_add]
  have habs : 0 ≤ max yr (-yr) := by
    rcases le_total 0 yr with h | h
    · exact le_max_of_le_left h
    · exact le_max_of_le_right (by linarith)
  have hpos : 0 < max yr (-yr) + e := by linarith
  have hpow : Real.rpow (max yr (-yr) + e) (pr * pr) = Real.exp (pr * pr * Real.log (max yr (-yr) + e)) :=
    (Real.rpow_def_of_pos hpos (pr * pr)).trans (congrArg Real.exp (mul_comm _ _))
  rw [sharpExpLog, sharpPow, hbase, Ideal.log_coe, if_neg (not_le.mpr hpos), ← EReal.coe_mul, ← EReal.coe_mul,
    Ideal.exp_coe, Ideal.pow_coe_coe, hpow]

end SharpCos

end
-- ==== Proof.FiniteInputs.lean ====
/-
  From the precondition "every float input is finite" to "every entry is a real number", over the extended reals.

  The precondition is a conjunction of five all-reductions, one per argument array: each compares |x| with +∞
  elementwise and folds the comparisons by `and` from 1. The result being 1 gives the comparison at every index
  (the universal property of the all-reduction; no index is ever enumerated), and |x| < +∞ over the extended reals
  says that x is neither +∞ nor −∞, that is, a real number.

  Padding an array of reals by a real value gives an array of reals, and the padding value used — the integer 0
  converted to a float — is the real number 0.
-/
import proofs.«103185_j89326729822460_1_alg».proof.Pre_finite_inputs
import proofs.«103185_j89326729822460_1_alg».proof.Proof.Gen.Pre_finite_inputs
import proofs.«103185_j89326729822460_1_alg».proof.Proof.SharpCosDefs
import Idealize.ShloMosaic.Lib.ReduceAll
import Idealize.ShloMosaic.Lib.ValueIdx
import Idealize.ShloMosaic.PureOps.Ideal.Laws
import Idealize.ShloMosaic.Lib.KernelVsHost

noncomputable section

namespace Cert.FiniteInputs

open Idealize.ShloMosaic

/-- The rank-zero shape has one index. -/
instance : Subsingleton Cert.Pre_finite_inputs.S_.Idx := ⟨fun a b => funext fun d => d.elim0⟩

/-- The pattern 0x7F800000 denotes +∞. -/
theorem ofBits_inf : Ideal.ofBits .f32 0x7F800000#32 = (⊤ : EReal) := by
  simp [Ideal.ofBits, Ideal.ieee]

/-- An extended real below +∞ in absolute value is a real number. -/
theorem isReal_of_abs_lt_top (x : EReal) (h : max x (-x) < ⊤) : SharpCos.IsReal x := by
  have h1 : x < ⊤ := lt_of_le_of_lt (le_max_left _ _) h
  have h2 : -x < ⊤ := lt_of_le_of_lt (le_max_right _ _) h
  induction x using EReal.rec with
  | bot => exact absurd h2 (by simp)
  | coe r => exact ⟨r, rfl⟩
  | top => exact absurd h1 (lt_irrefl _)

/-- The comparison |x| < +∞ that came out 1 says x is a real number. -/
theorem isReal_of_cmp (x : EReal)
    (h : Ideal.cmp .olt (max x (-x)) (Ideal.ofBits .f32 0x7F800000#32) = 1#1) : SharpCos.IsReal x := by
  rw [ofBits_inf] at h
  refine isReal_of_abs_lt_top x ?_
  by_contra hn
  simp [Ideal.cmp, hn] at h

/-- One all-reduction of the precondition: when it is 1, every entry of its array is a real number. -/
theorem all_isReal {s : Shape} (a : FVec Ideal s .f32)
    (hb : Cert.Pre_finite_inputs.S_.BroadcastsInDim s (![] : Fin 0 → Fin s.rank))
    {axes : List (Fin s.rank)} (hr : s.ReducesTo axes Cert.Pre_finite_inputs.S_)
    (hu : 0 < Cert.Pre_finite_inputs.S_.numel)
    (e : Host.reduce IntOp.andi
          (cmpf .olt (Host.absf a)
            (broadcastInDim s ![] hb (constant (F := Ideal) Cert.Pre_finite_inputs.S_ .f32 0x7F800000#32)))
          (constantI Cert.Pre_finite_inputs.S_ 1 1#1) hr hu ValueIdx.ix0 = 1#1)
    (i : s.Idx) : SharpCos.IsReal (a i) :=
  isReal_of_cmp (a i) (Host.reduce_andi_all _ _ hr hu ValueIdx.ix0 e i)

/-- The precondition at the extended reals: every entry of every argument array is a real number. -/
theorem entries_real [Cert.Pre_finite_inputs.Facts]
    (a0 : FVec Ideal Cert.Pre_finite_inputs.S16x112x112x64 .f32)
    (a1 : FVec Ideal Cert.Pre_finite_inputs.S1x576x128 .f32)
    (a2 a3 : FVec Ideal Cert.Pre_finite_inputs.S128 .f32)
    (a4 : FVec Ideal Cert.Pre_finite_inputs.S1 .f32)
    (h : Cert.Pre_finite_inputs.fn (F := Ideal) a0 a1 a2 a3 a4 = fun _ => 1#1) :
    (∀ i, SharpCos.IsReal (a0 i)) ∧ (∀ i, SharpCos.IsReal (a1 i)) ∧ (∀ i, SharpCos.IsReal (a2 i)) ∧
      (∀ i, SharpCos.IsReal (a3 i)) ∧ (∀ i, SharpCos.IsReal (a4 i)) := by
  have h0 := congrFun h ValueIdx.ix0
  dsimp only [Cert.Pre_finite_inputs.fn, Cert.Pre_finite_inputs.fn_part1] at h0
  -- the result is the conjunction (((all a0 ∧ all a1) ∧ all a2) ∧ all a3) ∧ all a4
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨all_isReal a0 _ _ _ e0, all_isReal a1 _ _ _ e1, all_isReal a2 _ _ _ e2, all_isReal a3 _ _ _ e3,
    all_isReal a4 _ _ _ e4⟩

/-- Padding an array of real numbers by a real number gives an array of real numbers: an entry of the padded
    array is an entry of the operand or the padding value. -/
theorem pad_isReal {s t u : Shape} (lo hi interior : Fin s.rank → Nat) (x : s.Idx → EReal) (v : u.Idx → EReal)
    (h : s.Pads lo hi interior t) (hu : 0 < u.numel) (hx : ∀ i, SharpCos.IsReal (x i))
    (hv : ∀ i, SharpCos.IsReal (v i)) (j : t.Idx) : SharpCos.IsReal (pad t lo hi interior x v h hu j) := by
  unfold pad
  split
  · exact hx _
  · exact hv _

/-- The padding value, the integer 0 converted to a float, is the real number 0. -/
theorem zero_pad_value_isReal (i : (⟨0, ![]⟩ : Shape).Idx) :
    SharpCos.IsReal ((sitofp (F := Ideal) .f32 (constantI (⟨0, ![]⟩ : Shape) 32 0#32)) i) :=
  ⟨(((0#32 : BitVec 32).toInt : ℤ) : ℝ), rfl⟩

end Cert.FiniteInputs

end
-- ==== Proof.Bridge.lean ====
/-
  The kernel's array function and the reference's result are one function of the arguments.

  Both read the same zero-padded images and the same weights over clamped column norms. At (b, h, w, f) the kernel
  sums the products tap by tap and divides the total by the patch norm; the reference divides each of the 576 patch
  entries by the norm first and sums once. With every argument entry a real number the two sums are equal
  (division by the positive norm distributes over the finite sum, and the 576 flat entries are the nine taps of 64
  channels), the cosine is a real number, and for a positive base the power is exp of the exponent times the
  logarithm.
-/
import proofs.«103185_j89326729822460_1_alg».proof.Proof.KernelValue
import proofs.«103185_j89326729822460_1_alg».proof.Proof.KernelHost
import proofs.«103185_j89326729822460_1_alg».proof.Proof.RefValue
import proofs.«103185_j89326729822460_1_alg».proof.Proof.RefPatch
import proofs.«103185_j89326729822460_1_alg».proof.Proof.SharpCosLaws
import proofs.«103185_j89326729822460_1_alg».proof.Proof.FiniteInputs

noncomputable section

namespace Cert.Bridge

open Idealize.ShloMosaic Idealize.ShloMosaic.ValueIdx SharpCos
open Cert.KernelIdeal.ArrayValue Cert.KernelIdeal.HostSide Cert.ReferenceIdeal.Entries

/-- Column f of the weights over its clamped norm, tap by tap. -/
def wTaps (A1 : (⟨3, ![1, 576, 128]⟩ : Shape).Idx → EReal) (f : Fin 128) : Fin 9 → Fin 64 → EReal := fun t c =>
  Ideal.div (A1 (ix3 0 (⟨t.val * 64 + c.val, by have := t.isLt; have := c.isLt; omega⟩ : Fin 576) f))
    (colNorm fun k => A1 (ix3 0 k f))

/-- A flat patch coordinate is its tap times 64 plus its channel. -/
theorem flat_index (k : Fin 576) :
    (⟨(tapOf k).val * 64 + (chanOf k).val, by have := (tapOf k).isLt; have := (chanOf k).isLt; omega⟩ : Fin 576) = k :=
  Fin.ext (by show k.val / 64 * 64 + k.val % 64 = k.val; omega)

/-- The kernel's scaled weight slices, column f, are the weights over the column norm. -/
theorem filterAt_scaledW (A1 : (⟨3, ![1, 576, 128]⟩ : Shape).Idx → EReal) (f : Fin 128) :
    filterAt (scaledW A1) f = wTaps A1 f :=
  funext fun t => funext fun c => scaledW_apply A1 t c f

/-- The reference's scaled weight column is the same, laid out flat. -/
theorem wcolRow_eq (A1 : (⟨3, ![1, 576, 128]⟩ : Shape).Idx → EReal) (f : Fin 128) :
    wcolRow A1 f = flat (wTaps A1 f) := funext fun k => by
  show Cert.ReferenceIdeal.Read.val_main_v41 (F := Ideal) A1 (ix2 k f) = wTaps A1 f (tapOf k) (chanOf k)
  rw [wcol_entry, zero_add, Fin.sum_univ_one]
  exact congrArg (fun k' : Fin 576 => Ideal.div (A1 (ix3 0 k' f)) (colNorm fun k => A1 (ix3 0 k f))) (flat_index k).symm

/-- The reference's patch at image b, position h·112 + w, is the patch of the padded image laid out flat. -/
theorem patchRow_eq (A0 : (⟨4, ![16, 112, 112, 64]⟩ : Shape).Idx → EReal) (b : Fin 16) (h w : Fin 112) :
    patchRow A0 b (⟨h.val * 112 + w.val, by have := h.isLt; have := w.isLt; omega⟩ : Fin 12544)
      = flat (patchAt (padded A0) b h w) := funext fun k => by
  show Cert.ReferenceIdeal.Read.val_main_v20 (F := Ideal) A0 (ix3 b _ k) = patchAt (padded A0) b h w (tapOf k) (chanOf k)
  refine (congrArg (fun k' : Fin 576 => Cert.ReferenceIdeal.Read.val_main_v20 (F := Ideal) A0 (ix3 b _ k')) (flat_index k).symm).trans ?_
  exact Cert.ReferenceIdeal.Patch.patch_entry A0 b h w (tapOf k) (chanOf k)

/-- THE TWO PROGRAMS' RESULTS ARE ONE FUNCTION of real-valued arguments. -/
theorem out_eq (A0 : (⟨4, ![16, 112, 112, 64]⟩ : Shape).Idx → EReal) (A1 : (⟨3, ![1, 576, 128]⟩ : Shape).Idx → EReal)
    (A2 A3 : (⟨1, ![128]⟩ : Shape).Idx → EReal) (A4 : (⟨1, ![1]⟩ : Shape).Idx → EReal)
    (h0 : ∀ i, IsReal (A0 i)) (h1 : ∀ i, IsReal (A1 i)) (h3 : ∀ i, IsReal (A3 i)) (h4 : ∀ i, IsReal (A4 i)) :
    outTaps (padded A0) (scaledW A1)
        (shapeCast Cert.KernelIdeal.S1x128 A2 Cert.KernelIdeal.Facts₀.shapeCasts_S128_S1x128)
        (shapeCast Cert.KernelIdeal.S1x128 A3 Cert.KernelIdeal.Facts₀.shapeCasts_S128_S1x128)
        (shapeCast Cert.KernelIdeal.S1x1 A4 Cert.KernelIdeal.Facts₀.shapeCasts_S1_S1x1)
      = Cert.ReferenceIdeal.Read.val_main_v55 (F := Ideal) A0 A1 A2 A3 A4 := by
  funext i
  obtain ⟨b, h, w, f, rfl⟩ : ∃ (b : Fin 16) (h w : Fin 112) (f : Fin 128), i = ix4 b h w f := ⟨i 0, i 1, i 2, i 3, eq_ix4 i⟩
  rw [out_entry, cos_entry, patchRow_eq, wcolRow_eq]
  show sharpExpLog (cosTaps (patchAt (padded A0) b h w) (filterAt (scaledW A1) f)
        (shapeCast Cert.KernelIdeal.S1x1 A4 Cert.KernelIdeal.Facts₀.shapeCasts_S1_S1x1 (ix2 0 0)))
      (shapeCast Cert.KernelIdeal.S1x128 A3 Cert.KernelIdeal.Facts₀.shapeCasts_S128_S1x128 (ix2 0 f))
      (shapeCast Cert.KernelIdeal.S1x128 A2 Cert.KernelIdeal.Facts₀.shapeCasts_S128_S1x128 (ix2 0 f)) = _
  rw [filterAt_scaledW, row_apply, row_apply, offset_apply]
  have hx : ∀ t c, IsReal (patchAt (padded A0) b h w t c) := fun t c => by
    unfold patchAt padded
    exact Cert.FiniteInputs.pad_isReal _ _ _ A0 padValue _ _ h0 Cert.FiniteInputs.zero_pad_value_isReal _
  have hw' : ∀ t c, IsReal (wTaps A1 f t c) := fun t c =>
    div_isReal _ _ (h1 _) (colNorm_pos _ fun k => h1 _)
  rw [← cos_eq _ _ _ hx hw' (h4 _)]
  exact sharp_eq _ _ _ (cosTaps_isReal _ _ _ hx hw' (h4 _)) (h3 _)

end Cert.Bridge

end
-- ==== Proof.lean ====
/-
  Sharpened cosine similarity of 3×3 patches (dense convolution form): a fused kernel against its jnp reference,
  equal over the extended reals on finite inputs.

  Both programs zero-pad the 16 images [112,112,64] by one row and column on each side and divide every weight of
  the [576,128] matrix by its column's clamped norm sqrt (max (∑ₖ w², ε)). For image b, position (h, w) and filter f,
  with x the 576 patch entries (nine taps (h + t / 3, w + t % 3) of 64 channels), ws the scaled column f,
  xn = sqrt (max (∑ x², ε)) + q·q:
      kernel     y = (∑ over the nine taps, each a sum over 64 channels, of x · ws) / xn,
                 out = sign y · exp (p·p · log (|y| + ε)) + bias;
      reference  y = ∑ over the 576 entries of (x / xn) · ws,
                 out = sign y · (|y| + ε) ^ (p·p) + bias.
  The kernel handles image b at grid point b and writes block b of the output (KernelValue); its body's arithmetic
  is read payload by payload (KernelTaps, KernelPayload, KernelBody) and the arrays it finds are the host's padding
  and weight scaling (KernelHost). The reference is read operation by operation (RefPatch, RefValue). With every
  input entry a real number (FiniteInputs) xn is a positive real, dividing by it distributes over the finite sum,
  the cosine is real, |y| + ε is positive and the power is exp of the exponent times the logarithm (SharpCosLaws,
  Bridge). The change of float format before the matrix unit is the identity on extended reals, and the kernel's
  sign-bit construction of sign y is the sign function (the one entry of the idealization ledger).
-/
import proofs.«103185_j89326729822460_1_alg».proof.Defs
import proofs.«103185_j89326729822460_1_alg».proof.Proof.Gen.Kernel
import proofs.«103185_j89326729822460_1_alg».proof.Proof.Gen.Kernel.Skeleton
import proofs.«103185_j89326729822460_1_alg».proof.Proof.Gen.Kernel.Launch
import proofs.«103185_j89326729822460_1_alg».proof.Proof.Gen.Kernel.Points
import proofs.«103185_j89326729822460_1_alg».proof.Proof.Gen.Kernel.Frame
import proofs.«103185_j89326729822460_1_alg».proof.Proof.Gen.KernelIdeal
import proofs.«103185_j89326729822460_1_alg».proof.Proof.Gen.KernelIdeal.Skeleton
import proofs.«103185_j89326729822460_1_alg».proof.Proof.Gen.KernelIdeal.Launch
import proofs.«103185_j89326729822460_1_alg».proof.Proof.Gen.KernelIdeal.Points
import proofs.«103185_j89326729822460_1_alg».proof.Proof.Gen.KernelIdeal.Frame
import proofs.«103185_j89326729822460_1_alg».proof.Proof.Gen.ReferenceIdeal
import proofs.«103185_j89326729822460_1_alg».proof.Proof.Gen.ReferenceIdeal.Run
import proofs.«103185_j89326729822460_1_alg».proof.Proof.Gen.ReferenceIdeal.Read
import proofs.«103185_j89326729822460_1_alg».proof.Proof.Gen.Pre_finite_inputs
import proofs.«103185_j89326729822460_1_alg».proof.Proof.Bridge
import Idealize.ShloMosaic.Adequacy
import Idealize.ShloMosaic.Init

noncomputable section

namespace Cert.Proof

open Idealize.ShloMosaic Idealize.SL.Sem Idealize.ShloMosaic.TcCoe

/-- The word-level kernel terminates without a fault and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one idealized site: 1.0 carrying y's sign bit is −1 below zero and 1 otherwise. -/
theorem preserves : Cert.preserves_Kernel_KernelIdeal := IdealRules.sign_bit.statement Cert.KernelIdeal.S12544x128 .f32

/-- From memories that agree on finite arguments both idealized programs end with the same output array. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := Cert.FiniteInputs.entries_real _ _ _ _ _ (hpre c)
  rw [Cert.ReferenceIdeal.Read.val_main_v55_eq, (hagree c).1, (hagree c).2.1, (hagree c).2.2.1, (hagree c).2.2.2.1,
    (hagree c).2.2.2.2, Cert.KernelIdeal.HostSide.V_padded, Cert.KernelIdeal.HostSide.V_weights,
    Cert.KernelIdeal.HostSide.V_bias, Cert.KernelIdeal.HostSide.V_exponent, Cert.KernelIdeal.HostSide.V_offset]
  exact (Cert.Bridge.out_eq _ _ _ _ _ h0 h1 h3 h4).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
